-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x640000 : Shape := ⟨2, ![2, 640000]⟩
abbrev S640000x1 : Shape := ⟨2, ![640000, 1]⟩
abbrev S10000x10000 : Shape := ⟨2, ![10000, 10000]⟩
abbrev S512x7 : Shape := ⟨2, ![512, 7]⟩
abbrev S7 : Shape := ⟨1, ![7]⟩
abbrev S7x7 : Shape := ⟨2, ![7, 7]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S10000x10000 : S_.BroadcastsInDim S10000x10000 (![] : Fin 0 → Fin S10000x10000.rank)
  reducesTo_S10000x10000_S_d0_1 : S10000x10000.ReducesTo [0, 1] S_
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 10000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg1 : IVec S2x640000 32) (main_arg5 : FVec F S7 .f32) (main_arg6 : FVec F S7x7 .f32) (main_arg7 : FVec F S7 .f32) (main_v13 : IVec S_ 1) (main_v16 : IVec S512x7 1) : IVec S_ 1 :=
  let main_c_5 : IVec S_ 1 := constantI S_ 1 1#1
  let main_v17 : IVec S_ 1 := (fun x v => Host.reduce IntOp.andi x v reducesTo_S512x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  let main_v24 : FVec F S7x7 .f32 := Host.absf main_arg6
  let main_cst_8 : FVec F S_ .f32 := constant S_ .f32 0x7F800000#32
  let main_v25 : FVec F S7x7 .f32 := broadcastInDim S7x7 ![] bcast_S_S7x7 main_cst_8
  let main_v26 : IVec S7x7 1 := cmpf .olt main_v24 main_v25
  let main_c_9 : IVec S_ 1 := constantI S_ 1 1#1
  let main_v27 : IVec S_ 1 := (fun x v => Host.reduce IntOp.andi x v reducesTo_S7x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  fn_part2 (F := F) main_arg1 main_v33

def fn {F : FTy → Type} [FloatOps F] (main_arg0 : FVec F S10000x512 .f32) (main_arg1 : IVec S2x640000 32) (main_arg2 : FVec F S640000x1 .f32) (main_arg3 : FVec F S10000x10000 .f32) (main_arg4 : FVec F S512x7 .f32) (main_arg5 : FVec F S7 .f32) (main_arg6 : FVec F S7x7 .f32) (main_arg7 : FVec F S7 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S10000x10000 .f32 := Host.absf main_arg3
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S512x7 .f32 := Host.absf main_arg4
  let main_cst_4 : FVec F S_ .f32 := constant S_ .f32 0x7F800000#32
  let main_v15 : FVec F S512x7 .f32 := broadcastInDim S512x7 ![] bcast_S_S512x7 main_cst_4
  let main_v16 : IVec S512x7 1 := cmpf .olt main_v14 main_v15
  fn_part1 (F := F) main_arg1 main_arg5 main_arg6 main_arg7 main_v13 main_v16
-- ==== Kernel.lean ====
abbrev S10000x512 : Shape := ⟨2, ![10000, 512]⟩
abbrev S2x640000 : Shape := ⟨2, ![2, 640000]⟩
abbrev S640000x1 : Shape := ⟨2, ![640000, 1]⟩
abbrev S10000x10000 : Shape := ⟨2, ![10000, 10000]⟩
abbrev S512x7 : Shape := ⟨2, ![512, 7]⟩
abbrev S7 : Shape := ⟨1, ![7]⟩
abbrev S7x7 : Shape := ⟨2, ![7, 7]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10112x10112 : Shape := ⟨2, ![10112, 10112]⟩
abbrev S650000x2 : Shape := ⟨2, ![650000, 2]⟩
abbrev S10112x512 : Shape := ⟨2, ![10112, 512]⟩
abbrev S512x128 : Shape := ⟨2, ![512, 128]⟩
abbrev S128 : Shape := ⟨1, ![128]⟩
abbrev S128x128 : Shape := ⟨2, ![128, 128]⟩
abbrev S10112x128 : Shape := ⟨2, ![10112, 128]⟩
abbrev S632x512 : Shape := ⟨2, ![632, 512]⟩
abbrev S632x128 : Shape := ⟨2, ![632, 128]⟩
abbrev S632x10112 : Shape := ⟨2, ![632, 10112]⟩
abbrev S1x128 : Shape := ⟨2, ![1, 128]⟩
abbrev S10000x7 : Shape := ⟨2, ![10000, 7]⟩
abbrev S1 : Shape := ⟨1, ![1]⟩

abbrev nBuf : Space → Nat
  | .hbm => 102
  | .vmem => 20
  | .smem => 0
  | _ => 0

abbrev bufTy : (tb : Table) → Fin (tcTables nBuf tb) → BufTy
  | .hbm, ⟨0, _⟩ => ⟨S10000x512, .f32⟩
  | .hbm, ⟨1, _⟩ => ⟨S2x640000, .i32⟩
  | .hbm, ⟨2, _⟩ => ⟨S640000x1, .f32⟩
  | .hbm, ⟨3, _⟩ => ⟨S10000x10000, .f32⟩
  | .hbm, ⟨4, _⟩ => ⟨S512x7, .f32⟩
  | .hbm, ⟨5, _⟩ => ⟨S7, .f32⟩
  | .hbm, ⟨6, _⟩ => ⟨S7x7, .f32⟩
  | .hbm, ⟨7, _⟩ => ⟨S7, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S640000, .f32⟩
  | .hbm, ⟨13, _⟩ => ⟨S10000, .i32⟩
  | .hbm, ⟨14, _⟩ => ⟨S650000, .i32⟩
  | .hbm, ⟨15, _⟩ => ⟨S650000, .i32⟩
  | .hbm, ⟨16, _⟩ => ⟨S_, .f32⟩
  | .hbm, ⟨17, _⟩ => ⟨S10000, .f32⟩
  | .hbm, ⟨18, _⟩ => ⟨S650000, .f32⟩
  | .hbm, ⟨19, _⟩ => ⟨S_, .f32⟩
  | .hbm, ⟨20, _⟩ => ⟨S10000, .f32⟩
  | .hbm, ⟨21, _⟩ => ⟨S650000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000, .f32⟩
  | .hbm, ⟨52, _⟩ => ⟨S650000, .f32⟩
  | .hbm, ⟨53, _⟩ => ⟨S_, .f32⟩
  | .hbm, ⟨54, _⟩ => ⟨S10112x10112, .f32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S_, .i32⟩
  | .hbm, ⟨63, _⟩ => ⟨S650000, .i32⟩
  | .hbm, ⟨64, _⟩ => ⟨S650000, .i1⟩
  | .hbm, ⟨65, _⟩ => ⟨S_, .i32⟩
  | .hbm, ⟨66, _⟩ => ⟨S650000, .i32⟩
  | .hbm, ⟨67, _⟩ => ⟨S650000, .i32⟩
  | .hbm, ⟨68, _⟩ => ⟨S650000, .i32⟩
  | .hbm, ⟨69, _⟩ => ⟨S650000x1, .i32⟩
  | .hbm, ⟨70, _⟩ => ⟨S650000x1, .i32⟩
  | .hbm, ⟨71, _⟩ => ⟨S650000x2, .i32⟩
  | .hbm, ⟨72, _⟩ => ⟨S10112x10112, .f32⟩
  | .hbm, ⟨73, _⟩ => ⟨S10112x10112, .bf16⟩
  | .hbm, ⟨74, _⟩ => ⟨S_, .i32⟩
  | .hbm, ⟨75, _⟩ => ⟨S_, .f32⟩
  | .hbm, ⟨76, _⟩ => ⟨S10112x512, .f32⟩
  | .hbm, ⟨77, _⟩ => ⟨S_, .i32⟩
  | .hbm, ⟨78, _⟩ => ⟨S_, .f32⟩
  | .hbm, ⟨79, _⟩ => ⟨S512x128, .f32⟩
  | .hbm, ⟨80, _⟩ => ⟨S_, .i32⟩
  | .hbm, ⟨81, _⟩ => ⟨S_, .f32⟩
  | .hbm, ⟨82, _⟩ => ⟨S128, .f32⟩
  | .hbm, ⟨83, _⟩ => ⟨S_, .i32⟩
  | .hbm, ⟨84, _⟩ => ⟨S_, .f32⟩
  | .hbm, ⟨85, _⟩ => ⟨S128x128, .f32⟩
  | .hbm, ⟨86, _⟩ => ⟨S_, .i32⟩
  | .hbm, ⟨87, _⟩ => ⟨S_, .f32⟩
  | .hbm, ⟨88, _⟩ => ⟨S128, .f32⟩
  | .hbm, ⟨89, _⟩ => ⟨S10112x128, .f32⟩
  | .hbm, ⟨90, _⟩ => ⟨S10112x128, .f32⟩
  | .hbm, ⟨91, _⟩ => ⟨S1x128, .f32⟩
  | .hbm, ⟨92, _⟩ => ⟨S10112x128, .f32⟩
  | .hbm, ⟨93, _⟩ => ⟨S10112x128, .f32⟩
  | .hbm, ⟨94, _⟩ => ⟨S10112x128, .f32⟩
  | .hbm, ⟨95, _⟩ => ⟨S10112x128, .f32⟩
  | .hbm, ⟨96, _⟩ => ⟨S1x128, .f32⟩
  | .hbm, ⟨97, _⟩ => ⟨S10112x128, .f32⟩
  | .hbm, ⟨98, _⟩ => ⟨S10112x128, .f32⟩
  | .hbm, ⟨99, _⟩ => ⟨S10000x7, .f32⟩
  | .hbm, ⟨100, _⟩ => ⟨S_, .f32⟩
  | .hbm, ⟨101, _⟩ => ⟨S1, .f32⟩
  | .local _ .vmem, ⟨0, _⟩ => ⟨S632x512, .f32⟩
  | .local _ .vmem, ⟨1, _⟩ => ⟨S632x512, .f32⟩
  | .local _ .vmem, ⟨2, _⟩ => ⟨S512x128, .f32⟩
  | .local _ .vmem, ⟨3, _⟩ => ⟨S632x128, .f32⟩
  | .local _ .vmem, ⟨4, _⟩ => ⟨S632x128, .f32⟩
  | .local _ .vmem, ⟨5, _⟩ => ⟨S632x10112, .bf16⟩
  | .local _ .vmem, ⟨6, _⟩ => ⟨S632x10112, .bf16⟩
  | .local _ .vmem, ⟨7, _⟩ => ⟨S10112x128, .f32⟩
  | .local _ .vmem, ⟨8, _⟩ => ⟨S632x128, .f32⟩
  | .local _ .vmem, ⟨9, _⟩ => ⟨S632x128, .f32⟩
  | .local _ .vmem, ⟨10, _⟩ => ⟨S632x128, .f32⟩
  | .local _ .vmem, ⟨11, _⟩ => ⟨S632x128, .f32⟩
  | .local _ .vmem, ⟨12, _⟩ => ⟨S128x128, .f32⟩
  | .local _ .vmem, ⟨13, _⟩ => ⟨S632x128, .f32⟩
  | .local _ .vmem, ⟨14, _⟩ => ⟨S632x128, .f32⟩
  | .local _ .vmem, ⟨15, _⟩ => ⟨S632x10112, .bf16⟩
  | .local _ .vmem, ⟨16, _⟩ => ⟨S632x10112, .bf16⟩
  | .local _ .vmem, ⟨17, _⟩ => ⟨S10112x128, .f32⟩
  | .local _ .vmem, ⟨18, _⟩ => ⟨S632x128, .f32⟩
  | .local _ .vmem, ⟨19, _⟩ => ⟨S632x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_call1_v0 : Ref sig .tc := ⟨.hbm, 75, rfl⟩
abbrev main_v50 : Ref sig .tc := ⟨.hbm, 76, rfl⟩
abbrev main_c_13 : Ref sig .tc := ⟨.hbm, 77, rfl⟩
abbrev main_call2_v0 : Ref sig .tc := ⟨.hbm, 78, rfl⟩
abbrev main_v51 : Ref sig .tc := ⟨.hbm, 79, rfl⟩
abbrev main_c_14 : Ref sig .tc := ⟨.hbm, 80, rfl⟩
abbrev main_call3_v0 : Ref sig .tc := ⟨.hbm, 81, rfl⟩
abbrev main_v52 : Ref sig .tc := ⟨.hbm, 82, rfl⟩
abbrev main_c_15 : Ref sig .tc := ⟨.hbm, 83, rfl⟩
abbrev main_call4_v0 : Ref sig .tc := ⟨.hbm, 84, rfl⟩
abbrev main_v53 : Ref sig .tc := ⟨.hbm, 85, rfl⟩
abbrev main_c_16 : Ref sig .tc := ⟨.hbm, 86, rfl⟩
abbrev main_call5_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_17 : Ref sig .tc := ⟨.hbm, 100, rfl⟩
abbrev main_v66 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S632x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S632x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S632x10112 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S632x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S632x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S632x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S632x10112 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10112x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S632x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000x1_S640000 : S640000x1.ShapeCasts S640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S_S10112x10112 : S_.BroadcastsInDim S10112x10112 (![] : Fin 0 → Fin S10112x10112.rank)
  concatenates_S650000x1_S650000x1_S650000x2_d1 : Shape.Concatenates [S650000x1, S650000x1] S650000x2 1
  bitsLt_bf16_f32 : FTy.bits .bf16 < FTy.bits .f32
  pads_S10000x512_S10112x512_01120_000 : S10000x512.Pads (![0, 0] : Fin 2 → Nat) ![112, 0] ![0, 0] S10112x512
  h_S_ : 0 < S_.numel
  pads_S512x7_S512x128_000_01210 : S512x7.Pads (![0, 0] : Fin 2 → Nat) ![0, 121] ![0, 0] S512x128
  pads_S7_S128_01210 : S7.Pads (![0] : Fin 1 → Nat) ![121] ![0] S128
  pads_S7x7_S128x128_01210_01210 : S7x7.Pads (![0, 0] : Fin 2 → Nat) ![121, 121] ![0, 0] S128x128
  inb_S632x512_S632x512_0_0 : ∀ a, (![0, 0] : Fin 2 → Nat) a + S632x512.size a ≤ S632x512.size a
  h_S632x512 : 0 < S632x512.numel
  shapeCasts_S632x512_S632x512 : S632x512.ShapeCasts S632x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S632x128_S632x128_0_0 : ∀ a, (![0, 0] : Fin 2 → Nat) a + S632x128.size a ≤ S632x128.size a
  h_S632x128 : 0 < S632x128.numel
  inb_S632x10112_S632x10112_0_0 : ∀ a, (![0, 0] : Fin 2 → Nat) a + S632x10112.size a ≤ S632x10112.size a
  h_S632x10112 : 0 < S632x10112.numel
  shapeCasts_S632x10112_S632x10112 : S632x10112.ShapeCasts S632x10112
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  bcast_S128_S1x128_1 : S128.BroadcastsInDim S1x128 (![1] : Fin 1 → Fin S1x128.rank)
  bcast_S1x128_S10112x128_0_1 : S1x128.BroadcastsInDim S10112x128 (![0, 1] : Fin 2 → Fin S10112x128.rank)
  shapeCasts_S632x128_S632x128 : S632x128.ShapeCasts S632x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S10112x128_S10000x7_0_0 : S10112x128.Slices ![0, 0] S10000x7
  bcast_S_S1 : S_.BroadcastsInDim S1 (![] : Fin 0 → Fin S1.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10112x10112_S650000x2_S650000_n_01_01_1_wf : ScatterDims.WF S10112x10112 S650000x2 S650000 [] [0, 1] [0, 1] 1
  dot_S632x512_S512x128_S632x128_1_0_0_1_n_n_wf : DotDims.WF S632x512 S512x128 S632x128 [1] [0] [0] [1] [] []
  dot_S632x10112_S10112x128_S632x128_1_0_0_1_n_n_wf : DotDims.WF S632x10112 S10112x128 S632x128 [1] [0] [0] [1] [] []
  dot_S632x128_S128x128_S632x128_1_0_0_1_n_n_wf : DotDims.WF S632x128 S128x128 S632x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S632x512.size a ≤ S10112x512.size a
  hwx0_0 : ∀ i : grid0.Coords, EltTy.bits .f32 = 32 ∨ (Rect.block (s := S10112x512) S632x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S632x128.size a ≤ S10112x128.size a
  hwx0_2 : ∀ i : grid0.Coords, EltTy.bits .f32 = 32 ∨ (Rect.block (s := S10112x128) S632x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S632x10112.size a ≤ S10112x10112.size a
  hwx1_0 : ∀ i : grid1.Coords, EltTy.bits .bf16 = 32 ∨ (Rect.block (s := S10112x10112) S632x10112.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x128.size a ≤ S10112x128.size a
  hwx1_1 : ∀ i : grid1.Coords, EltTy.bits .f32 = 32 ∨ (Rect.block (s := S10112x128) S10112x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S632x128.size a ≤ S10112x128.size a
  hwx1_2 : ∀ i : grid1.Coords, EltTy.bits .f32 = 32 ∨ (Rect.block (s := S10112x128) S632x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S632x128.size a ≤ S10112x128.size a
  hwx2_0 : ∀ i : grid2.Coords, EltTy.bits .f32 = 32 ∨ (Rect.block (s := S10112x128) S632x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S632x128.size a ≤ S10112x128.size a
  hwx2_2 : ∀ i : grid2.Coords, EltTy.bits .f32 = 32 ∨ (Rect.block (s := S10112x128) S632x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S632x10112.size a ≤ S10112x10112.size a
  hwx3_0 : ∀ i : grid3.Coords, EltTy.bits .bf16 = 32 ∨ (Rect.block (s := S10112x10112) S632x10112.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10112x128.size a ≤ S10112x128.size a
  hwx3_1 : ∀ i : grid3.Coords, EltTy.bits .f32 = 32 ∨ (Rect.block (s := S10112x128) S10112x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S632x128.size a ≤ S10112x128.size a
  hwx3_2 : ∀ i : grid3.Coords, EltTy.bits .f32 = 32 ∨ (Rect.block (s := S10112x128) S632x128.size (cc3_transform_2 i) (hinb3_2 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10112x10112_S650000x2_S650000_n_01_01_1 : ScatterDims S10112x10112 S650000x2 S650000 where
  updateWindowDims := []
  insertedWindowDims := [0, 1]
  scatterDimsToOperandDims := [0, 1]
  indexVectorDim := 1
  wf := scatter_S10112x10112_S650000x2_S650000_n_01_01_1_wf
def dot_S632x512_S512x128_S632x128_1_0_0_1_n_n : DotDims S632x512 S512x128 S632x128 where
  lhsContracting := [1]
  rhsContracting := [0]
  lhsNonContracting := [0]
  rhsNonContracting := [1]
  lhsBatch := []
  rhsBatch := []
  wf := dot_S632x512_S512x128_S632x128_1_0_0_1_n_n_wf
def dot_S632x10112_S10112x128_S632x128_1_0_0_1_n_n : DotDims S632x10112 S10112x128 S632x128 where
  lhsContracting := [1]
  rhsContracting := [0]
  lhsNonContracting := [0]
  rhsNonContracting := [1]
  lhsBatch := []
  rhsBatch := []
  wf := dot_S632x10112_S10112x128_S632x128_1_0_0_1_n_n_wf
def dot_S632x128_S128x128_S632x128_1_0_0_1_n_n : DotDims S632x128 S128x128 S632x128 where
  lhsContracting := [1]
  rhsContracting := [0]
  lhsNonContracting := [0]
  rhsNonContracting := [1]
  lhsBatch := []
  rhsBatch := []
  wf := dot_S632x128_S128x128_S632x128_1_0_0_1_n_n_wf

abbrev win0_0 : Pipeline.Window sig grid0 :=
  Pipeline.Window.ofSpec (Memref.whole main_v50) S632x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S632x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S632x10112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S10112x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S632x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S632x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S632x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S632x10112.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S10112x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S632x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x512 : Shape := ⟨2, ![10000, 512]⟩
abbrev S2x640000 : Shape := ⟨2, ![2, 640000]⟩
abbrev S640000x1 : Shape := ⟨2, ![640000, 1]⟩
abbrev S10000x10000 : Shape := ⟨2, ![10000, 10000]⟩
abbrev S512x7 : Shape := ⟨2, ![512, 7]⟩
abbrev S7 : Shape := ⟨1, ![7]⟩
abbrev S7x7 : Shape := ⟨2, ![7, 7]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10000x7 : Shape := ⟨2, ![10000, 7]⟩
abbrev S650000x7 : Shape := ⟨2, ![650000, 7]⟩
abbrev S1x7 : Shape := ⟨2, ![1, 7]⟩
abbrev S1 : Shape := ⟨1, ![1]⟩

abbrev nBuf : Space → Nat
  | .hbm => 135
  | .vmem => 0
  | .smem => 0
  | _ => 0

abbrev hbmTy0_0 (i : Nat) : BufTy := match i % 128 with
  | 0 => ⟨S10000x512, .f32⟩
  | 1 => ⟨S2x640000, .i32⟩
  | 2 => ⟨S640000x1, .f32⟩
  | 3 => ⟨S10000x10000, .f32⟩
  | 4 => ⟨S512x7, .f32⟩
  | 5 => ⟨S7, .f32⟩
  | 6 => ⟨S7x7, .f32⟩
  | 7 => ⟨S7, .f32⟩
  | 8 => ⟨S1x640000, .i32⟩
  | 9 => ⟨S640000, .i32⟩
  | 10 => ⟨S1x640000, .i32⟩
  | 11 => ⟨S640000, .i32⟩
  | 12 => ⟨S640000, .f32⟩
  | 13 => ⟨S10000, .i32⟩
  | 14 => ⟨S650000, .i32⟩
  | 15 => ⟨S650000, .i32⟩
  | 16 => ⟨S_, .f32⟩
  | 17 => ⟨S10000, .f32⟩
  | 18 => ⟨S650000, .f32⟩
  | 19 => ⟨S_, .f32⟩
  | 20 => ⟨S10000, .f32⟩
  | 21 => ⟨S650000x1, .i32⟩
  | 22 => ⟨S10000, .f32⟩
  | 23 => ⟨S_, .f32⟩
  | 24 => ⟨S10000, .f32⟩
  | 25 => ⟨S10000, .i1⟩
  | 26 => ⟨S_, .f32⟩
  | 27 => ⟨S10000, .f32⟩
  | 28 => ⟨S10000, .f32⟩
  | 29 => ⟨S_, .f32⟩
  | 30 => ⟨S_, .f32⟩
  | 31 => ⟨S10000, .f32⟩
  | 32 => ⟨S10000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S650000, .f32⟩
  | 43 => ⟨S_, .i32⟩
  | 44 => ⟨S650000, .i32⟩
  | 45 => ⟨S650000, .i1⟩
  | 46 => ⟨S_, .i32⟩
  | 47 => ⟨S650000, .i32⟩
  | 48 => ⟨S650000, .i32⟩
  | 49 => ⟨S650000, .i32⟩
  | 50 => ⟨S650000x1, .i32⟩
  | 51 => ⟨S650000, .f32⟩
  | 52 => ⟨S650000, .f32⟩
  | 53 => ⟨S10000x7, .f32⟩
  | 54 => ⟨S650000x1, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x7, .f32⟩
  | 64 => ⟨S650000x7, .f32⟩
  | 65 => ⟨S650000x7, .f32⟩
  | 66 => ⟨S_, .f32⟩
  | 67 => ⟨S10000x7, .f32⟩
  | 68 => ⟨S650000x1, .i32⟩
  | 69 => ⟨S10000x7, .f32⟩
  | 70 => ⟨S1x7, .f32⟩
  | 71 => ⟨S10000x7, .f32⟩
  | 72 => ⟨S10000x7, .f32⟩
  | 73 => ⟨S10000, .i32⟩
  | 74 => ⟨S650000, .i32⟩
  | 75 => ⟨S650000, .i32⟩
  | 76 => ⟨S_, .f32⟩
  | 77 => ⟨S10000, .f32⟩
  | 78 => ⟨S650000, .f32⟩
  | 79 => ⟨S_, .f32⟩
  | 80 => ⟨S10000, .f32⟩
  | 81 => ⟨S650000x1, .i32⟩
  | 82 => ⟨S10000, .f32⟩
  | 83 => ⟨S_, .f32⟩
  | 84 => ⟨S10000, .f32⟩
  | 85 => ⟨S10000, .i1⟩
  | 86 => ⟨S_, .f32⟩
  | 87 => ⟨S10000, .f32⟩
  | 88 => ⟨S10000, .f32⟩
  | 89 => ⟨S_, .f32⟩
  | 90 => ⟨S_, .f32⟩
  | 91 => ⟨S10000, .f32⟩
  | 92 => ⟨S10000, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000, .f32⟩
  | 102 => ⟨S650000, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000, .f32⟩
  | 112 => ⟨S650000, .f32⟩
  | 113 => ⟨S10000x7, .f32⟩
  | 114 => ⟨S650000x1, .f32⟩
  | 115 => ⟨S_, .i32⟩
  | 116 => ⟨S650000, .i32⟩
  | 117 => ⟨S650000, .i1⟩
  | 118 => ⟨S_, .i32⟩
  | 119 => ⟨S650000, .i32⟩
  | 120 => ⟨S650000, .i32⟩
  | 121 => ⟨S650000, .i32⟩
  | 122 => ⟨S650000x1, .i32⟩
  | 123 => ⟨S650000x7, .f32⟩
  | 124 => ⟨S650000x7, .f32⟩
  | 125 => ⟨S650000x7, .f32⟩
  | 126 => ⟨S_, .f32⟩
  | 127 => ⟨S10000x7, .f32⟩
  | _ => ⟨S10000x512, .f32⟩

abbrev hbmTy0_1 (i : Nat) : BufTy := match i % 128 with
  | 0 => ⟨S650000x1, .i32⟩
  | 1 => ⟨S10000x7, .f32⟩
  | 2 => ⟨S1x7, .f32⟩
  | 3 => ⟨S10000x7, .f32⟩
  | 4 => ⟨S10000x7, .f32⟩
  | 5 => ⟨S_, .f32⟩
  | 6 => ⟨S1, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_19 : Ref sig .tc := ⟨.hbm, 115, rfl⟩
abbrev main_v82 : Ref sig .tc := ⟨.hbm, 116, rfl⟩
abbrev main_v83 : Ref sig .tc := ⟨.hbm, 117, rfl⟩
abbrev main_c_20 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000x1_S640000 : S640000x1.ShapeCasts S640000
  concatenates_S640000_S10000_S650000_d0 : Shape.Concatenates [S640000, S10000] S650000 0
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x7_0_1 : S650000x1.BroadcastsInDim S650000x7 (![0, 1] : Fin 2 → Fin S650000x7.rank)
  bcast_S_S10000x7 : S_.BroadcastsInDim S10000x7 (![] : Fin 0 → Fin S10000x7.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  bcast_S_S1 : S_.BroadcastsInDim S1 (![] : Fin 0 → Fin S1.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x512_S512x7_S10000x7_1_0_0_1_n_n_wf : DotDims.WF S10000x512 S512x7 S10000x7 [1] [0] [0] [1] [] []
  gather_S10000x7_S650000x1_S650000x7_1_0_n_n_0_1_17_wf : GatherDims.WF S10000x7 S650000x1 S650000x7 [1] [0] [] [0] [] 1 ![1, 7]
  scatter_S10000x7_S650000x1_S650000x7_1_0_0_1_wf : ScatterDims.WF S10000x7 S650000x1 S650000x7 [1] [0] [0] 1
  dot_S10000x7_S7x7_S10000x7_1_0_0_1_n_n_wf : DotDims.WF S10000x7 S7x7 S10000x7 [1] [0] [0] [1] [] []

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x512_S512x7_S10000x7_1_0_0_1_n_n : DotDims S10000x512 S512x7 S10000x7 where
  lhsContracting := [1]
  rhsContracting := [0]
  lhsNonContracting := [0]
  rhsNonContracting := [1]
  lhsBatch := []
  rhsBatch := []
  wf := dot_S10000x512_S512x7_S10000x7_1_0_0_1_n_n_wf
def gather_S10000x7_S650000x1_S650000x7_1_0_n_n_0_1_17 : GatherDims S10000x7 S650000x1 S650000x7 where
  offsetDims := [1]
  collapsedSliceDims := [0]
  operandBatchingDims := []
  startIndicesBatchingDims := []
  startIndexMap := [0]
  indexVectorDim := 1
  sliceSizes := ![1, 7]
  wf := gather_S10000x7_S650000x1_S650000x7_1_0_n_n_0_1_17_wf
def scatter_S10000x7_S650000x1_S650000x7_1_0_0_1 : ScatterDims S10000x7 S650000x1 S650000x7 where
  updateWindowDims := [1]
  insertedWindowDims := [0]
  scatterDimsToOperandDims := [0]
  indexVectorDim := 1
  wf := scatter_S10000x7_S650000x1_S650000x7_1_0_0_1_wf
def dot_S10000x7_S7x7_S10000x7_1_0_0_1_n_n : DotDims S10000x7 S7x7 S10000x7 where
  lhsContracting := [1]
  rhsContracting := [0]
  lhsNonContracting := [0]
  rhsNonContracting := [1]
  lhsBatch := []
  rhsBatch := []
  wf := dot_S10000x7_S7x7_S10000x7_1_0_0_1_n_n_wf

class Facts : Prop extends Facts₀ where

variable [Facts]
-- ==== Proof.KRun.lean ====
/-
  The kernel program's run with its two results named: every weakly fair execution of @main ends, and each result
  buffer then holds what the chain of host operations and regions leaves there (the fold of buffer contents
  from the launch memory, read at the result's buffer); the argument arrays are unchanged.
-/
import proofs.«102903_j56195352101227_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the 18 segments, read at the final state: the two results at the last boundary's contents, the
    arguments as launched. -/
theorem run_named : θ_run defs (onTc (τ := τ) (main (F := F))) ⟨m, fun _ => 0, ρ⟩ (fun r => ∀ c : Dev nD,
      r.2.mem ((c.tc : Thread nD τ).loc main_v65) = W18 m ρ c (Proc.devRef .tc main_v65)
      ∧ r.2.mem ((c.tc : Thread nD τ).loc main_v66) = W18 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v65 (by decide)),
       h c _ (mem_uc main_v66 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.Named

end
-- ==== Proof.KDefs.lean ====
/-
  Three terms of the kernel program's host side, named: the zero its pads fill with, the wrap of a negative
  node-number word by the padded size 10112, and the dense 10112 x 10112 matrix that accumulates each arc's
  normalised weight at (row word, column word).
-/
import proofs.«102903_j56195352101227_1_alg».proof.KernelIdeal
import proofs.«102903_j56195352101227_1_alg».proof.Proof.Gen.KernelIdeal
import Idealize.ShloMosaic.PureOps.Ideal

noncomputable section

namespace Cert.KernelIdeal.Terms

open Idealize.ShloMosaic Cert.KernelIdeal Cert.KernelIdeal.Gen

/-- The zero the pads fill with: the integer 0 converted to a float. -/
abbrev padZero : FVec Ideal S_ .f32 := sitofp .f32 (constantI S_ 32 0#32)

/-- A node-number word with the padded size 10112 added when it is negative. -/
def wrap (v : IVec S650000 32) : IVec S650000 32 :=
  select (cmpi .slt v (broadcastInDim S650000 ![] bcast_S_S650000 (constantI S_ 32 0#32)))
    (addi v (broadcastInDim S650000 ![] bcast_S_S650000 (constantI S_ 32 10112#32))) v

/-- The accumulation before the change of float format: zeros, plus each arc's normalised weight added at
    (wrapped row word, wrapped column word). -/
def adjAcc (rowv colv : IVec S650000 32) (nrm : FVec Ideal S650000 .f32) : FVec Ideal S10112x10112 .f32 :=
  Host.scatterAdd scatter_S10112x10112_S650000x2_S650000_n_01_01_1
    (broadcastInDim S10112x10112 ![] bcast_S_S10112x10112 (constant S_ .f32 0x00000000#32))
    (concatenate S650000x2 1 [⟨S650000x1, broadcastInDim S650000x1 ![0] bcast_S650000_S650000x1_0 (wrap rowv)⟩,
      ⟨S650000x1, broadcastInDim S650000x1 ![0] bcast_S650000_S650000x1_0 (wrap colv)⟩] concatenates_S650000x1_S650000x1_S650000x2_d1)
    nrm

/-- The dense matrix as the regions read it (a change of float format, the identity on extended reals). -/
def adj (rowv colv : IVec S650000 32) (nrm : FVec Ideal S650000 .f32) : FVec Ideal S10112x10112 .bf16 :=
  truncf .bf16 (adjAcc rowv colv nrm) bitsLt_bf16_f32

end Cert.KernelIdeal.Terms

end
-- ==== Proof.KFold.lean ====
/-
  The contents of the kernel program's buffers when its first region is entered, as functions of the argument
  arrays: the zero-padded copies of the features, the two weight matrices and the two biases, and the dense
  10112 x 10112 matrix that accumulates the normalised arc weights at (row, column) — the arc rows, arc columns and
  normalised weights being the very terms the reference program computes (the two programs' first host operations
  are the same text).
-/
import proofs.«102903_j56195352101227_1_alg».proof.Proof.Gen.KernelIdeal.Frame
import proofs.«102903_j56195352101227_1_alg».proof.Proof.Gen.ReferenceIdeal.Read
import proofs.«102903_j56195352101227_1_alg».proof.Proof.KDefs
import Idealize.ShloMosaic.Lib.StableHlo.Run
import Idealize.ShloMosaic.Lib.ValueIdx

set_option maxRecDepth 16384

noncomputable section

namespace Cert.KernelIdeal.Fold

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

open Cert.KernelIdeal.Terms

theorem xpad_eq : W12 (F := Ideal) m ρ c (Proc.devRef .tc main_v50)
    = pad S10112x512 ![0, 0] ![112, 0] ![0, 0] (m ((c : Thread nD τ).loc main_arg0)) padZero pads_S10000x512_S10112x512_01120_000 h_S_ := by
  dsimp only [W12, W11, W10, W9, W8, W7, W6, W5, W4, W3, W2, W1, W0, hostOps0_11, hostOps0_10, hostOps0_9, hostOps0_8, hostOps0_7, hostOps0_6, hostOps0_5, hostOps0_4, hostOps0_3, hostOps0_2, hostOps0_1, hostOps0]
  after_results_simp
  rfl

theorem w1pad_eq : W12 (F := Ideal) m ρ c (Proc.devRef .tc main_v51)
    = pad S512x128 ![0, 0] ![0, 121] ![0, 0] (m ((c : Thread nD τ).loc main_arg4)) padZero pads_S512x7_S512x128_000_01210 h_S_ := by
  dsimp only [W12, W11, W10, W9, W8, W7, W6, W5, W4, W3, W2, W1, W0, hostOps0_11, hostOps0_10, hostOps0_9, hostOps0_8, hostOps0_7, hostOps0_6, hostOps0_5, hostOps0_4, hostOps0_3, hostOps0_2, hostOps0_1, hostOps0]
  after_results_simp
  rfl

theorem b1pad_eq : W12 (F := Ideal) m ρ c (Proc.devRef .tc main_v52)
    = pad S128 ![0] ![121] ![0] (m ((c : Thread nD τ).loc main_arg5)) padZero pads_S7_S128_01210 h_S_ := by
  dsimp only [W12, W11, W10, W9, W8, W7, W6, W5, W4, W3, W2, W1, W0, hostOps0_11, hostOps0_10, hostOps0_9, hostOps0_8, hostOps0_7, hostOps0_6, hostOps0_5, hostOps0_4, hostOps0_3, hostOps0_2, hostOps0_1, hostOps0]
  after_results_simp
  rfl

theorem w2pad_eq : W12 (F := Ideal) m ρ c (Proc.devRef .tc main_v53)
    = pad S128x128 ![0, 0] ![121, 121] ![0, 0] (m ((c : Thread nD τ).loc main_arg6)) padZero pads_S7x7_S128x128_01210_01210 h_S_ := by
  dsimp only [W12, W11, W10, W9, W8, W7, W6, W5, W4, W3, W2, W1, W0, hostOps0_11, hostOps0_10, hostOps0_9, hostOps0_8, hostOps0_7, hostOps0_6, hostOps0_5, hostOps0_4, hostOps0_3, hostOps0_2, hostOps0_1, hostOps0]
  after_results_simp
  rfl

theorem b2pad_eq : W12 (F := Ideal) m ρ c (Proc.devRef .tc main_v54)
    = pad S128 ![0] ![121] ![0] (m ((c : Thread nD τ).loc main_arg7)) padZero pads_S7_S128_01210 h_S_ := by
  dsimp only [W12, W11, W10, W9, W8, W7, W6, W5, W4, W3, W2, W1, W0, hostOps0_11, hostOps0_10, hostOps0_9, hostOps0_8, hostOps0_7, hostOps0_6, hostOps0_5, hostOps0_4, hostOps0_3, hostOps0_2, hostOps0_1, hostOps0]
  after_results_simp
  rfl

end Cert.KernelIdeal.Fold

end
-- ==== Proof.KBias.lean ====
/-
  A bias vector of 128 entries laid along every one of the 10112 rows of a node table (the host's two broadcasts).
-/
import proofs.«102903_j56195352101227_1_alg».proof.KernelIdeal
import proofs.«102903_j56195352101227_1_alg».proof.Proof.Gen.KernelIdeal
import Idealize.ShloMosaic.PureOps.Ideal

noncomputable section

namespace Cert.KernelIdeal.Terms

open Idealize.ShloMosaic Cert.KernelIdeal Cert.KernelIdeal.Gen

/-- Entry (r, q) of the result is entry q of the bias. -/
def biasRows (b : FVec Ideal S128 .f32) : FVec Ideal S10112x128 .f32 :=
  broadcastInDim S10112x128 ![0, 1] bcast_S1x128_S10112x128_0_1 (broadcastInDim S1x128 ![1] bcast_S128_S1x128_1 b)

end Cert.KernelIdeal.Terms

end
-- ==== Proof.LibPlainMatmul.lean ====
/-
  A plain matrix product read entry by entry over the extended reals.

  For the dimension numbers of an ordinary product, [M, K] by [K, N] with the left operand contracted on its
  second axis and the right operand on its first, the product accumulated into the zero array has at
  row p and column q the sum over k of (left at (p, k)) times (right at (k, q)). The contraction index of such a
  product has one coordinate, which ranges over K.
-/
import Idealize.ShloMosaic.PureOps.Ideal.Laws
import Idealize.ShloMosaic.Lib.ValueIdx

namespace Cert.Lib.PlainMatmul

open Idealize.ShloMosaic Idealize.ShloMosaic.ValueIdx

variable {M K N : ℕ}

/-- An ordinary product contracts one axis. -/
theorem rank_contr : (DotDims.plain M K N).contr.rank = 1 := rfl

/-- The contracted axis has K positions. -/
theorem size_contr : (DotDims.plain M K N).contr.size ⟨0, by rw [rank_contr]; exact Nat.one_pos⟩ = K := rfl

/-- The contraction positions are the numbers below K. -/
noncomputable abbrev pos : (DotDims.plain M K N).contr.Idx ≃ Fin K :=
  contrEquiv1 (DotDims.plain M K N) K rank_contr size_contr

/-- At output entry (p, q) and contraction position k the left operand is read at (p, k). -/
theorem lhsIdx_eq (p : Fin M) (q : Fin N) (k : Fin K) :
    (DotDims.plain M K N).lhsIdx (ix2 p q) (pos.symm k) = ix2 p k := by
  funext a
  apply Fin.ext
  match a with
  | ⟨0, _⟩ =>
    simp [DotDims.lhsIdx, DotDims.plain]
    rfl
  | ⟨1, _⟩ =>
    refine (DotDims.lhsIdx_val_of_single (DotDims.plain M K N) (cl := (1 : Fin 2)) rfl (ix2 p q) (pos.symm k)).trans ?_
    exact contrEquiv1_symm_val (DotDims.plain M K N) K rank_contr size_contr k

/-- At output entry (p, q) and contraction position k the right operand is read at (k, q). -/
theorem rhsIdx_eq (p : Fin M) (q : Fin N) (k : Fin K) :
    (DotDims.plain M K N).rhsIdx (ix2 p q) (pos.symm k) = ix2 k q := by
  funext a
  apply Fin.ext
  match a with
  | ⟨0, _⟩ =>
    refine (DotDims.rhsIdx_val_of_single (DotDims.plain M K N) (cr := (0 : Fin 2)) rfl (ix2 p q) (pos.symm k)).trans ?_
    exact contrEquiv1_symm_val (DotDims.plain M K N) K rank_contr size_contr k
  | ⟨1, _⟩ =>
    simp [DotDims.rhsIdx, DotDims.plain]
    rfl

/-- The product into the zero array, at entry (p, q), is the sum over k of the products of the operands' entries
    (p, k) and (k, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (pos (M := M) (K := K) (N := N)).symm]
  exact Finset.sum_congr rfl fun k _ => by rw [lhsIdx_eq, rhsIdx_eq]

end Cert.Lib.PlainMatmul
-- ==== Proof.KReg0.lean ====
/-
  Region 0 of the kernel program is a row-blocked matrix product: grid point t takes rows [632·t, 632·t + 632) of the
  left array (all 512 columns) and the whole right array, and writes the corresponding 632 rows of the product.
  The blocks tile the 10112 rows, so after the region the output array is the product of the two arrays
  as the region found them, entry by entry: (r, q) ↦ ∑ k, left (r, k) · right (k, q).
-/
import proofs.«102903_j56195352101227_1_alg».proof.Proof.Gen.KernelIdeal.Frame
import proofs.«102903_j56195352101227_1_alg».proof.Proof.LibPlainMatmul
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The product of two whole arrays, entry by entry. -/
def prod (X : S10112x512.Idx → EReal) (W : S512x128.Idx → EReal) : S10112x128.Idx → EReal :=
  fun i => ∑ k : Fin 512, X (ix2 (i 0) k) * W (ix2 k (i 1))

theorem prod_apply (X : S10112x512.Idx → EReal) (W : S512x128.Idx → EReal) (i : S10112x128.Idx) :
    prod X W i = ∑ k : Fin 512, X (ix2 (i 0) k) * W (ix2 k (i 1)) := rfl

theorem zero_offsets : (![0, 0] : Fin 2 → Nat) = fun _ => 0 := funext fun a => by fin_cases a <;> rfl

/-- The body's arithmetic at entry (p, q) of a block: the row of the left block against the column of the right one. -/
theorem pay_apply (x0 : Vec Ideal S632x512 .f32) (x1 : Vec Ideal S512x128 .f32) (p : Fin 632) (q : Fin 128) :
    k0_pay1 (F := Ideal) x0 x1 (ix2 p q) = ∑ k : Fin 512, x0 (ix2 p k) * x1 (ix2 k q) := by
  unfold k0_pay1
  simp only [shapeCast_self]
  exact Cert.Lib.PlainMatmul.matmul_zero_apply (M := 632) (K := 512) (N := 128) none _ _ p q

/-- The printed block index maps over the 16 grid points: the left and output windows take row block t, every other
    block coordinate is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What grid point t writes back is block t of the product of the arrays as the region finds them. -/
theorem flushed_eq (c : Dev nD) (t : Fin cfg0.N) :
    (dat0 (F := Ideal) V c).flushed 2 t
      = ((cfg0.win 2).blk t).view.read (Elt Ideal) (prod (V c main_v50) (V c main_v51)) := by
  show (cfg0.win 2).cut (grid0.coords t) ((dat0 (F := Ideal) V c).after 2 t) = _
  rw [after0_2]
  unfold out0_2
  rw [View.canon_unit_zero zero_offsets]
  simp only [View.ld_unit_zero (S := S632x512) zero_offsets, View.ld_unit_zero (S := S512x128) zero_offsets]
  obtain ⟨e0, e1, e2, e3, e4, e5⟩ := index_facts t
  funext j
  obtain ⟨p, q, rfl⟩ : ∃ (p : Fin 632) (q : Fin 128), j = ix2 p q := ⟨j 0, j 1, eq_ix2 j⟩
  refine (pay_apply _ _ p q).trans ?_
  show _ = prod (V c main_v50) (V c main_v51) (((cfg0.win 2).blk t).view.emb (ix2 p q))
  rw [prod_apply]
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 632 + 1 * p.val = win0_2.index t (0 : Fin 2) * 632 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_v50) h0) (congrArg (V c main_v51) h1)

/-- An index of the output array lies in point t's block iff each coordinate lies in the block's range. -/
theorem mem_block (t : Fin cfg0.N) (i : S10112x128.Idx) :
    i ∈ ((cfg0.win 2).blk t).view.set ↔ ∀ a : Fin 2, win0_2.index t a * S632x128.size a ≤ (i a).val ∧ (i a).val < win0_2.index t a * S632x128.size a + S632x128.size a := by
  show i ∈ ((View.whole main_v55).slice (win0_2.rect t)).set ↔ _
  rw [View.set_slice_whole, Rect.mem_set_unit]
  exact Iff.rfl

/-- Every index of the output array lies in the block of the point numbered (row / 632). -/
theorem covered (i : S10112x128.Idx) : ∃ t : Fin cfg0.N, (cfg0.win 2).flush t = true ∧ i ∈ ((cfg0.win 2).blk t).view.set := by
  have hi0 : (i 0).val < 10112 := (i 0).isLt
  have hi1 : (i 1).val < 128 := (i 1).isLt
  refine ⟨⟨(i 0).val / 632, by show (i 0).val / 632 < 16; omega⟩, flush0_2 _, ?_⟩
  rw [mem_block]
  obtain ⟨e0, e1, e2, e3, e4, e5⟩ := index_facts ⟨(i 0).val / 632, by show (i 0).val / 632 < 16; omega⟩
  intro a
  match a with
  | ⟨0, _⟩ => show win0_2.index _ (0 : Fin 2) * 632 ≤ (i 0).val ∧ (i 0).val < win0_2.index _ (0 : Fin 2) * 632 + 632; rw [e5]; show (i 0).val / 632 * 632 ≤ (i 0).val ∧ (i 0).val < (i 0).val / 632 * 632 + 632; omega
  | ⟨1, _⟩ => show win0_2.index _ (1 : Fin 2) * 128 ≤ (i 1).val ∧ (i 1).val < win0_2.index _ (1 : Fin 2) * 128 + 128; rw [e4]; omega

/-- After the region the output array is the product of the two input arrays as the region found them. -/
theorem final (c : Dev nD) :
    (dat0 (F := Ideal) V c).arrAt 2 cfg0.N = prod (V c main_v50) (V c main_v51) :=
  (dat0 (F := Ideal) V c).arrAt_eq_of_cover 2 (prod (V c main_v50) (V c main_v51)) (fun t _ => flushed_eq V c t) (fun i => covered i)

end Cert.KernelIdeal.Region0

end
-- ==== Proof.KReg1.lean ====
/-
  Region 1 of the kernel program is a row-blocked matrix product: grid point t takes rows [632·t, 632·t + 632) of the
  left array (all 10112 columns) and the whole right array, and writes the corresponding 632 rows of the product.
  The blocks tile the 10112 rows, so after the region the output array is the product of the two arrays
  as the region found them, entry by entry: (r, q) ↦ ∑ k, left (r, k) · right (k, q).
-/
import proofs.«102903_j56195352101227_1_alg».proof.Proof.Gen.KernelIdeal.Frame
import proofs.«102903_j56195352101227_1_alg».proof.Proof.LibPlainMatmul
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The product of two whole arrays, entry by entry. -/
def prod (X : S10112x10112.Idx → EReal) (W : S10112x128.Idx → EReal) : S10112x128.Idx → EReal :=
  fun i => ∑ k : Fin 10112, X (ix2 (i 0) k) * W (ix2 k (i 1))

theorem prod_apply (X : S10112x10112.Idx → EReal) (W : S10112x128.Idx → EReal) (i : S10112x128.Idx) :
    prod X W i = ∑ k : Fin 10112, X (ix2 (i 0) k) * W (ix2 k (i 1)) := rfl

theorem zero_offsets : (![0, 0] : Fin 2 → Nat) = fun _ => 0 := funext fun a => by fin_cases a <;> rfl

/-- The body's arithmetic at entry (p, q) of a block: the row of the left block against the column of the right one. -/
theorem pay_apply (x0 : Vec Ideal S632x10112 .bf16) (x1 : Vec Ideal S10112x128 .f32) (p : Fin 632) (q : Fin 128) :
    k1_pay1 (F := Ideal) x0 x1 (ix2 p q) = ∑ k : Fin 10112, x0 (ix2 p k) * x1 (ix2 k q) := by
  unfold k1_pay1
  simp only [shapeCast_self]
  exact Cert.Lib.PlainMatmul.matmul_zero_apply (M := 632) (K := 10112) (N := 128) none _ _ p q

/-- The printed block index maps over the 16 grid points: the left and output windows take row block t, every other
    block coordinate is 0. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What grid point t writes back is block t of the product of the arrays as the region finds them. -/
theorem flushed_eq (c : Dev nD) (t : Fin cfg1.N) :
    (dat1 (F := Ideal) V c).flushed 2 t
      = ((cfg1.win 2).blk t).view.read (Elt Ideal) (prod (V c main_v49) (V c main_v55)) := by
  show (cfg1.win 2).cut (grid1.coords t) ((dat1 (F := Ideal) V c).after 2 t) = _
  rw [after1_2]
  unfold out1_2
  rw [View.canon_unit_zero zero_offsets]
  simp only [View.ld_unit_zero (S := S632x10112) zero_offsets, View.ld_unit_zero (S := S10112x128) zero_offsets]
  obtain ⟨e0, e1, e2, e3, e4, e5⟩ := index_facts t
  funext j
  obtain ⟨p, q, rfl⟩ : ∃ (p : Fin 632) (q : Fin 128), j = ix2 p q := ⟨j 0, j 1, eq_ix2 j⟩
  refine (pay_apply _ _ p q).trans ?_
  show _ = prod (V c main_v49) (V c main_v55) (((cfg1.win 2).blk t).view.emb (ix2 p q))
  rw [prod_apply]
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 632 + 1 * p.val = win1_2.index t (0 : Fin 2) * 632 + 1 * p.val; omega
    | ⟨1, _⟩ => show win1_0.index t (1 : Fin 2) * 10112 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 10112 + 1 * k.val = k.val; omega
    | ⟨1, _⟩ => show win1_1.index t (1 : Fin 2) * 128 + 1 * q.val = win1_2.index t (1 : Fin 2) * 128 + 1 * q.val; omega
  exact congrArg₂ (fun a b : EReal => a * b) (congrArg (V c main_v49) h0) (congrArg (V c main_v55) h1)

/-- An index of the output array lies in point t's block iff each coordinate lies in the block's range. -/
theorem mem_block (t : Fin cfg1.N) (i : S10112x128.Idx) :
    i ∈ ((cfg1.win 2).blk t).view.set ↔ ∀ a : Fin 2, win1_2.index t a * S632x128.size a ≤ (i a).val ∧ (i a).val < win1_2.index t a * S632x128.size a + S632x128.size a := by
  show i ∈ ((View.whole main_v56).slice (win1_2.rect t)).set ↔ _
  rw [View.set_slice_whole, Rect.mem_set_unit]
  exact Iff.rfl

/-- Every index of the output array lies in the block of the point numbered (row / 632). -/
theorem covered (i : S10112x128.Idx) : ∃ t : Fin cfg1.N, (cfg1.win 2).flush t = true ∧ i ∈ ((cfg1.win 2).blk t).view.set := by
  have hi0 : (i 0).val < 10112 := (i 0).isLt
  have hi1 : (i 1).val < 128 := (i 1).isLt
  refine ⟨⟨(i 0).val / 632, by show (i 0).val / 632 < 16; omega⟩, flush1_2 _, ?_⟩
  rw [mem_block]
  obtain ⟨e0, e1, e2, e3, e4, e5⟩ := index_facts ⟨(i 0).val / 632, by show (i 0).val / 632 < 16; omega⟩
  intro a
  match a with
  | ⟨0, _⟩ => show win1_2.index _ (0 : Fin 2) * 632 ≤ (i 0).val ∧ (i 0).val < win1_2.index _ (0 : Fin 2) * 632 + 632; rw [e5]; show (i 0).val / 632 * 632 ≤ (i 0).val ∧ (i 0).val < (i 0).val / 632 * 632 + 632; omega
  | ⟨1, _⟩ => show win1_2.index _ (1 : Fin 2) * 128 ≤ (i 1).val ∧ (i 1).val < win1_2.index _ (1 : Fin 2) * 128 + 128; rw [e4]; omega

/-- After the region the output array is the product of the two input arrays as the region found them. -/
theorem final (c : Dev nD) :
    (dat1 (F := Ideal) V c).arrAt 2 cfg1.N = prod (V c main_v49) (V c main_v55) :=
  (dat1 (F := Ideal) V c).arrAt_eq_of_cover 2 (prod (V c main_v49) (V c main_v55)) (fun t _ => flushed_eq V c t) (fun i => covered i)

end Cert.KernelIdeal.Region1

end
-- ==== Proof.KReg2.lean ====
/-
  Region 2 of the kernel program is a row-blocked matrix product: grid point t takes rows [632·t, 632·t + 632) of the
  left array (all 128 columns) and the whole right array, and writes the corresponding 632 rows of the product.
  The blocks tile the 10112 rows, so after the region the output array is the product of the two arrays
  as the region found them, entry by entry: (r, q) ↦ ∑ k, left (r, k) · right (k, q).
-/
import proofs.«102903_j56195352101227_1_alg».proof.Proof.Gen.KernelIdeal.Frame
import proofs.«102903_j56195352101227_1_alg».proof.Proof.LibPlainMatmul
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The product of two whole arrays, entry by entry. -/
def prod (X : S10112x128.Idx → EReal) (W : S128x128.Idx → EReal) : S10112x128.Idx → EReal :=
  fun i => ∑ k : Fin 128, X (ix2 (i 0) k) * W (ix2 k (i 1))

theorem prod_apply (X : S10112x128.Idx → EReal) (W : S128x128.Idx → EReal) (i : S10112x128.Idx) :
    prod X W i = ∑ k : Fin 128, X (ix2 (i 0) k) * W (ix2 k (i 1)) := rfl

theorem zero_offsets : (![0, 0] : Fin 2 → Nat) = fun _ => 0 := funext fun a => by fin_cases a <;> rfl

/-- The body's arithmetic at entry (p, q) of a block: the row of the left block against the column of the right one. -/
theorem pay_apply (x0 : Vec Ideal S632x128 .f32) (x1 : Vec Ideal S128x128 .f32) (p : Fin 632) (q : Fin 128) :
    k2_pay1 (F := Ideal) x0 x1 (ix2 p q) = ∑ k : Fin 128, x0 (ix2 p k) * x1 (ix2 k q) := by
  unfold k2_pay1
  simp only [shapeCast_self]
  exact Cert.Lib.PlainMatmul.matmul_zero_apply (M := 632) (K := 128) (N := 128) none _ _ p q

/-- The printed block index maps over the 16 grid points: the left and output windows take row block t, every other
    block coordinate is 0. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What grid point t writes back is block t of the product of the arrays as the region finds them. -/
theorem flushed_eq (c : Dev nD) (t : Fin cfg2.N) :
    (dat2 (F := Ideal) V c).flushed 2 t
      = ((cfg2.win 2).blk t).view.read (Elt Ideal) (prod (V c main_v59) (V c main_v53)) := by
  show (cfg2.win 2).cut (grid2.coords t) ((dat2 (F := Ideal) V c).after 2 t) = _
  rw [after2_2]
  unfold out2_2
  rw [View.canon_unit_zero zero_offsets]
  simp only [View.ld_unit_zero (S := S632x128) zero_offsets, View.ld_unit_zero (S := S128x128) zero_offsets]
  obtain ⟨e0, e1, e2, e3, e4, e5⟩ := index_facts t
  funext j
  obtain ⟨p, q, rfl⟩ : ∃ (p : Fin 632) (q : Fin 128), j = ix2 p q := ⟨j 0, j 1, eq_ix2 j⟩
  refine (pay_apply _ _ p q).trans ?_
  show _ = prod (V c main_v59) (V c main_v53) (((cfg2.win 2).blk t).view.emb (ix2 p q))
  rw [prod_apply]
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 632 + 1 * p.val = win2_2.index t (0 : Fin 2) * 632 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (fun a b : EReal => a * b) (congrArg (V c main_v59) h0) (congrArg (V c main_v53) h1)

/-- An index of the output array lies in point t's block iff each coordinate lies in the block's range. -/
theorem mem_block (t : Fin cfg2.N) (i : S10112x128.Idx) :
    i ∈ ((cfg2.win 2).blk t).view.set ↔ ∀ a : Fin 2, win2_2.index t a * S632x128.size a ≤ (i a).val ∧ (i a).val < win2_2.index t a * S632x128.size a + S632x128.size a := by
  show i ∈ ((View.whole main_v60).slice (win2_2.rect t)).set ↔ _
  rw [View.set_slice_whole, Rect.mem_set_unit]
  exact Iff.rfl

/-- Every index of the output array lies in the block of the point numbered (row / 632). -/
theorem covered (i : S10112x128.Idx) : ∃ t : Fin cfg2.N, (cfg2.win 2).flush t = true ∧ i ∈ ((cfg2.win 2).blk t).view.set := by
  have hi0 : (i 0).val < 10112 := (i 0).isLt
  have hi1 : (i 1).val < 128 := (i 1).isLt
  refine ⟨⟨(i 0).val / 632, by show (i 0).val / 632 < 16; omega⟩, flush2_2 _, ?_⟩
  rw [mem_block]
  obtain ⟨e0, e1, e2, e3, e4, e5⟩ := index_facts ⟨(i 0).val / 632, by show (i 0).val / 632 < 16; omega⟩
  intro a
  match a with
  | ⟨0, _⟩ => show win2_2.index _ (0 : Fin 2) * 632 ≤ (i 0).val ∧ (i 0).val < win2_2.index _ (0 : Fin 2) * 632 + 632; rw [e5]; show (i 0).val / 632 * 632 ≤ (i 0).val ∧ (i 0).val < (i 0).val / 632 * 632 + 632; omega
  | ⟨1, _⟩ => show win2_2.index _ (1 : Fin 2) * 128 ≤ (i 1).val ∧ (i 1).val < win2_2.index _ (1 : Fin 2) * 128 + 128; rw [e4]; omega

/-- After the region the output array is the product of the two input arrays as the region found them. -/
theorem final (c : Dev nD) :
    (dat2 (F := Ideal) V c).arrAt 2 cfg2.N = prod (V c main_v59) (V c main_v53) :=
  (dat2 (F := Ideal) V c).arrAt_eq_of_cover 2 (prod (V c main_v59) (V c main_v53)) (fun t _ => flushed_eq V c t) (fun i => covered i)

end Cert.KernelIdeal.Region2

end
-- ==== Proof.KReg3.lean ====
/-
  Region 3 of the kernel program is a row-blocked matrix product: grid point t takes rows [632·t, 632·t + 632) of the
  left array (all 10112 columns) and the whole right array, and writes the corresponding 632 rows of the product.
  The blocks tile the 10112 rows, so after the region the output array is the product of the two arrays
  as the region found them, entry by entry: (r, q) ↦ ∑ k, left (r, k) · right (k, q).
-/
import proofs.«102903_j56195352101227_1_alg».proof.Proof.Gen.KernelIdeal.Frame
import proofs.«102903_j56195352101227_1_alg».proof.Proof.LibPlainMatmul
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The product of two whole arrays, entry by entry. -/
def prod (X : S10112x10112.Idx → EReal) (W : S10112x128.Idx → EReal) : S10112x128.Idx → EReal :=
  fun i => ∑ k : Fin 10112, X (ix2 (i 0) k) * W (ix2 k (i 1))

theorem prod_apply (X : S10112x10112.Idx → EReal) (W : S10112x128.Idx → EReal) (i : S10112x128.Idx) :
    prod X W i = ∑ k : Fin 10112, X (ix2 (i 0) k) * W (ix2 k (i 1)) := rfl

theorem zero_offsets : (![0, 0] : Fin 2 → Nat) = fun _ => 0 := funext fun a => by fin_cases a <;> rfl

/-- The body's arithmetic at entry (p, q) of a block: the row of the left block against the column of the right one. -/
theorem pay_apply (x0 : Vec Ideal S632x10112 .bf16) (x1 : Vec Ideal S10112x128 .f32) (p : Fin 632) (q : Fin 128) :
    k3_pay1 (F := Ideal) x0 x1 (ix2 p q) = ∑ k : Fin 10112, x0 (ix2 p k) * x1 (ix2 k q) := by
  unfold k3_pay1
  simp only [shapeCast_self]
  exact Cert.Lib.PlainMatmul.matmul_zero_apply (M := 632) (K := 10112) (N := 128) none _ _ p q

/-- The printed block index maps over the 16 grid points: the left and output windows take row block t, every other
    block coordinate is 0. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What grid point t writes back is block t of the product of the arrays as the region finds them. -/
theorem flushed_eq (c : Dev nD) (t : Fin cfg3.N) :
    (dat3 (F := Ideal) V c).flushed 2 t
      = ((cfg3.win 2).blk t).view.read (Elt Ideal) (prod (V c main_v49) (V c main_v60)) := by
  show (cfg3.win 2).cut (grid3.coords t) ((dat3 (F := Ideal) V c).after 2 t) = _
  rw [after3_2]
  unfold out3_2
  rw [View.canon_unit_zero zero_offsets]
  simp only [View.ld_unit_zero (S := S632x10112) zero_offsets, View.ld_unit_zero (S := S10112x128) zero_offsets]
  obtain ⟨e0, e1, e2, e3, e4, e5⟩ := index_facts t
  funext j
  obtain ⟨p, q, rfl⟩ : ∃ (p : Fin 632) (q : Fin 128), j = ix2 p q := ⟨j 0, j 1, eq_ix2 j⟩
  refine (pay_apply _ _ p q).trans ?_
  show _ = prod (V c main_v49) (V c main_v60) (((cfg3.win 2).blk t).view.emb (ix2 p q))
  rw [prod_apply]
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 632 + 1 * p.val = win3_2.index t (0 : Fin 2) * 632 + 1 * p.val; omega
    | ⟨1, _⟩ => show win3_0.index t (1 : Fin 2) * 10112 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 10112 + 1 * k.val = k.val; omega
    | ⟨1, _⟩ => show win3_1.index t (1 : Fin 2) * 128 + 1 * q.val = win3_2.index t (1 : Fin 2) * 128 + 1 * q.val; omega
  exact congrArg₂ (fun a b : EReal => a * b) (congrArg (V c main_v49) h0) (congrArg (V c main_v60) h1)

/-- An index of the output array lies in point t's block iff each coordinate lies in the block's range. -/
theorem mem_block (t : Fin cfg3.N) (i : S10112x128.Idx) :
    i ∈ ((cfg3.win 2).blk t).view.set ↔ ∀ a : Fin 2, win3_2.index t a * S632x128.size a ≤ (i a).val ∧ (i a).val < win3_2.index t a * S632x128.size a + S632x128.size a := by
  show i ∈ ((View.whole main_v61).slice (win3_2.rect t)).set ↔ _
  rw [View.set_slice_whole, Rect.mem_set_unit]
  exact Iff.rfl

/-- Every index of the output array lies in the block of the point numbered (row / 632). -/
theorem covered (i : S10112x128.Idx) : ∃ t : Fin cfg3.N, (cfg3.win 2).flush t = true ∧ i ∈ ((cfg3.win 2).blk t).view.set := by
  have hi0 : (i 0).val < 10112 := (i 0).isLt
  have hi1 : (i 1).val < 128 := (i 1).isLt
  refine ⟨⟨(i 0).val / 632, by show (i 0).val / 632 < 16; omega⟩, flush3_2 _, ?_⟩
  rw [mem_block]
  obtain ⟨e0, e1, e2, e3, e4, e5⟩ := index_facts ⟨(i 0).val / 632, by show (i 0).val / 632 < 16; omega⟩
  intro a
  match a with
  | ⟨0, _⟩ => show win3_2.index _ (0 : Fin 2) * 632 ≤ (i 0).val ∧ (i 0).val < win3_2.index _ (0 : Fin 2) * 632 + 632; rw [e5]; show (i 0).val / 632 * 632 ≤ (i 0).val ∧ (i 0).val < (i 0).val / 632 * 632 + 632; omega
  | ⟨1, _⟩ => show win3_2.index _ (1 : Fin 2) * 128 ≤ (i 1).val ∧ (i 1).val < win3_2.index _ (1 : Fin 2) * 128 + 128; rw [e4]; omega

/-- After the region the output array is the product of the two input arrays as the region found them. -/
theorem final (c : Dev nD) :
    (dat3 (F := Ideal) V c).arrAt 2 cfg3.N = prod (V c main_v49) (V c main_v60) :=
  (dat3 (F := Ideal) V c).arrAt_eq_of_cover 2 (prod (V c main_v49) (V c main_v60)) (fun t _ => flushed_eq V c t) (fun i => covered i)

end Cert.KernelIdeal.Region3

end
-- ==== Proof.KChain.lean ====
/-
  The kernel program's buffers followed from its first region to its results: region 0 multiplies the padded
  features by the padded first weights, region 1 multiplies the dense arc matrix by that product, the first bias is
  added on the host, regions 2 and 3 repeat this with the second weights, the second bias is added and the
  10000 x 7 corner is cut out.  Buffers a segment does not write keep their contents.
-/
import proofs.«102903_j56195352101227_1_alg».proof.Proof.KFold
import proofs.«102903_j56195352101227_1_alg».proof.Proof.KBias
import proofs.«102903_j56195352101227_1_alg».proof.Proof.KReg0
import proofs.«102903_j56195352101227_1_alg».proof.Proof.KReg1
import proofs.«102903_j56195352101227_1_alg».proof.Proof.KReg2
import proofs.«102903_j56195352101227_1_alg».proof.Proof.KReg3
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.KernelIdeal.Terms

variable (m : (ℓ : Loc nD τ sig) → Buf (Elt Ideal) ℓ) (ρ : Dev nD → PrngReg) (c : Dev nD)

theorem v55_eq : W13 (F := Ideal) m ρ c (Proc.devRef .tc main_v55)
    = Region0.prod (W12 (F := Ideal) m ρ c (Proc.devRef .tc main_v50)) (W12 (F := Ideal) m ρ c (Proc.devRef .tc main_v51)) :=
  (W13_arr m ρ c 2).trans (Region0.final (V12 m ρ) c)

theorem v49_13 : W13 (F := Ideal) m ρ c (Proc.devRef .tc main_v49) = W12 (F := Ideal) m ρ c (Proc.devRef .tc main_v49) :=
  W13_of_ne m ρ c main_v49 (by decide)

theorem v56_eq : W14 (F := Ideal) m ρ c (Proc.devRef .tc main_v56)
    = Region1.prod (W13 (F := Ideal) m ρ c (Proc.devRef .tc main_v49)) (W13 (F := Ideal) m ρ c (Proc.devRef .tc main_v55)) :=
  (W14_arr m ρ c 2).trans (Region1.final (V13 m ρ) c)

theorem v52_14 : W14 (F := Ideal) m ρ c (Proc.devRef .tc main_v52) = W12 (F := Ideal) m ρ c (Proc.devRef .tc main_v52) :=
  (W14_of_ne m ρ c main_v52 (by decide)).trans (W13_of_ne m ρ c main_v52 (by decide))

theorem v59_eq : W15 (F := Ideal) m ρ c (Proc.devRef .tc main_v59)
    = addf (W14 (F := Ideal) m ρ c (Proc.devRef .tc main_v56)) (biasRows (W14 (F := Ideal) m ρ c (Proc.devRef .tc main_v52))) := by
  show StableHlo.after hostOps2 (W14 (F := Ideal) m ρ c) (Proc.devRef .tc main_v59) = _
  after_results
  rfl

theorem v53_15 : W15 (F := Ideal) m ρ c (Proc.devRef .tc main_v53) = W12 (F := Ideal) m ρ c (Proc.devRef .tc main_v53) := by
  refine Eq.trans ?_ ((W14_of_ne m ρ c main_v53 (by decide)).trans (W13_of_ne m ρ c main_v53 (by decide)))
  show StableHlo.after hostOps2 (W14 (F := Ideal) m ρ c) (Proc.devRef .tc main_v53) = _
  after_results

/-- The arc matrix is region 1's left input: an input window's array is not written. -/
theorem v49_14 : W14 (F := Ideal) m ρ c (Proc.devRef .tc main_v49) = W13 (F := Ideal) m ρ c (Proc.devRef .tc main_v49) :=
  (W14_arr m ρ c 0).trans (((dat1 (F := Ideal) (V13 m ρ) c).arrAt_in 0 rfl cfg1.N).trans (A_eq1 (V13 m ρ) c 0))

theorem v49_15 : W15 (F := Ideal) m ρ c (Proc.devRef .tc main_v49) = W12 (F := Ideal) m ρ c (Proc.devRef .tc main_v49) := by
  refine Eq.trans ?_ ((v49_14 m ρ c).trans (W13_of_ne m ρ c main_v49 (by decide)))
  show StableHlo.after hostOps2 (W14 (F := Ideal) m ρ c) (Proc.devRef .tc main_v49) = _
  after_results

theorem v54_15 : W15 (F := Ideal) m ρ c (Proc.devRef .tc main_v54) = W12 (F := Ideal) m ρ c (Proc.devRef .tc main_v54) := by
  refine Eq.trans ?_ ((W14_of_ne m ρ c main_v54 (by decide)).trans (W13_of_ne m ρ c main_v54 (by decide)))
  show StableHlo.after hostOps2 (W14 (F := Ideal) m ρ c) (Proc.devRef .tc main_v54) = _
  after_results

theorem v60_eq : W16 (F := Ideal) m ρ c (Proc.devRef .tc main_v60)
    = Region2.prod (W15 (F := Ideal) m ρ c (Proc.devRef .tc main_v59)) (W15 (F := Ideal) m ρ c (Proc.devRef .tc main_v53)) :=
  (W16_arr m ρ c 2).trans (Region2.final (V15 m ρ) c)

theorem v49_16 : W16 (F := Ideal) m ρ c (Proc.devRef .tc main_v49) = W12 (F := Ideal) m ρ c (Proc.devRef .tc main_v49) :=
  (W16_of_ne m ρ c main_v49 (by decide)).trans (v49_15 m ρ c)

theorem v61_eq : W17 (F := Ideal) m ρ c (Proc.devRef .tc main_v61)
    = Region3.prod (W16 (F := Ideal) m ρ c (Proc.devRef .tc main_v49)) (W16 (F := Ideal) m ρ c (Proc.devRef .tc main_v60)) :=
  (W17_arr m ρ c 2).trans (Region3.final (V16 m ρ) c)

theorem v54_17 : W17 (F := Ideal) m ρ c (Proc.devRef .tc main_v54) = W12 (F := Ideal) m ρ c (Proc.devRef .tc main_v54) :=
  (W17_of_ne m ρ c main_v54 (by decide)).trans ((W16_of_ne m ρ c main_v54 (by decide)).trans (v54_15 m ρ c))

theorem v65_eq : W18 (F := Ideal) m ρ c (Proc.devRef .tc main_v65)
    = extractStridedSlice S10000x7 ![0, 0]
        (addf (W17 (F := Ideal) m ρ c (Proc.devRef .tc main_v61)) (biasRows (W17 (F := Ideal) m ρ c (Proc.devRef .tc main_v54))))
        slices_S10112x128_S10000x7_0_0 := by
  show StableHlo.after hostOps4 (W17 (F := Ideal) m ρ c) (Proc.devRef .tc main_v65) = _
  after_results
  rfl

theorem v66_eq : W18 (F := Ideal) m ρ c (Proc.devRef .tc main_v66)
    = broadcastInDim S1 ![] bcast_S_S1 (constant (F := Ideal) S_ .f32 0x00000000#32) := by
  show StableHlo.after hostOps4 (W17 (F := Ideal) m ρ c) (Proc.devRef .tc main_v66) = _
  after_results

end Cert.KernelIdeal.Chain

end
-- ==== Proof.KFoldAdj.lean ====
/-
  The dense arc matrix the kernel program builds before its first region, as a function of the argument arrays:
  the arc rows, arc columns, arc weights and inverse-root degrees it is accumulated from are the terms the
  reference program computes (the two programs' first 34 host operations are the same text).
-/
import proofs.«102903_j56195352101227_1_alg».proof.Proof.Gen.KernelIdeal.Frame
import proofs.«102903_j56195352101227_1_alg».proof.Proof.Gen.ReferenceIdeal.Read
import proofs.«102903_j56195352101227_1_alg».proof.Proof.KDefs
import Idealize.ShloMosaic.Lib.StableHlo.Run
import Idealize.ShloMosaic.Lib.ValueIdx

set_option maxRecDepth 65536

noncomputable section

namespace Cert.KernelIdeal.FoldAdj

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

open Cert.KernelIdeal.Terms

/-- A node-number word with 10000 added when it is negative (the indexing convention of the two gathers). -/
def wrapN (v : IVec S650000 32) : IVec S650000 32 :=
  select (cmpi .slt v (broadcastInDim S650000 ![] bcast_S_S650000 (constantI S_ 32 0#32)))
    (addi v (broadcastInDim S650000 ![] bcast_S_S650000 (constantI S_ 32 10000#32))) v

/-- An arc's normalised weight: the inverse-root degree of its row, times its weight, times that of its column. -/
def normOf (dinv : FVec Ideal S10000 .f32) (rowv colv : IVec S650000 32) (ew : FVec Ideal S650000 .f32) : FVec Ideal S650000 .f32 :=
  mulf (mulf (Host.gather gather_S10000_S650000x1_S650000_n_0_n_n_0_1_1 dinv (broadcastInDim S650000x1 ![0] bcast_S650000_S650000x1_0 (wrapN rowv))) ew)
    (Host.gather gather_S10000_S650000x1_S650000_n_0_n_n_0_1_1 dinv (broadcastInDim S650000x1 ![0] bcast_S650000_S650000x1_0 (wrapN colv)))

/-- After the first two stretches: the arc row words. -/
theorem rows_eq : W2 (F := Ideal) m ρ c (Proc.devRef .tc main_v6) = Cert.ReferenceIdeal.Read.val_main_v6 (F := Ideal) (m ((c : Thread nD τ).loc main_arg1)) := by
  show StableHlo.after hostOps0_1 (StableHlo.after hostOps0 (W0 (F := Ideal) m ρ c)) (Proc.devRef .tc main_v6) = _
  after_results_simp
  rfl

/-- The arc column words. -/
theorem cols_eq : W2 (F := Ideal) m ρ c (Proc.devRef .tc main_v7) = Cert.ReferenceIdeal.Read.val_main_v7 (F := Ideal) (m ((c : Thread nD τ).loc main_arg1)) := by
  show StableHlo.after hostOps0_1 (StableHlo.after hostOps0 (W0 (F := Ideal) m ρ c)) (Proc.devRef .tc main_v7) = _
  after_results_simp
  rfl

/-- The arc weights. -/
theorem weights_eq : W2 (F := Ideal) m ρ c (Proc.devRef .tc main_v9) = Cert.ReferenceIdeal.Read.val_main_v9 (F := Ideal) (m ((c : Thread nD τ).loc main_arg2)) := by
  show StableHlo.after hostOps0_1 (StableHlo.after hostOps0 (W0 (F := Ideal) m ρ c)) (Proc.devRef .tc main_v9) = _
  after_results_simp
  rfl

/-- The select that guards the inverse root, whatever the buffers hold when its stretch starts. -/
theorem sel_of (V : Valuation τ sig (Elt Ideal)) : StableHlo.after hostOps0_1 V (Proc.devRef .tc main_v17)
    = select (V (Proc.devRef .tc main_v14)) (V (Proc.devRef .tc main_v16)) (broadcastInDim S10000 ![] bcast_S_S10000 (V (Proc.devRef .tc main_cst_3))) := by
  after_results_simp
  rfl

/-- Which degrees are positive. -/
theorem pos_eq : W1 (F := Ideal) m ρ c (Proc.devRef .tc main_v14) = Cert.ReferenceIdeal.Read.val_main_v14 (F := Ideal) (m ((c : Thread nD τ).loc main_arg1)) (m ((c : Thread nD τ).loc main_arg2)) := by
  show StableHlo.after hostOps0 (W0 (F := Ideal) m ρ c) (Proc.devRef .tc main_v14) = _
  after_results_simp
  rfl

/-- The degrees to the power -1/2. -/
theorem pow_eq : W1 (F := Ideal) m ρ c (Proc.devRef .tc main_v16) = Cert.ReferenceIdeal.Read.val_main_v16 (F := Ideal) (m ((c : Thread nD τ).loc main_arg1)) (m ((c : Thread nD τ).loc main_arg2)) := by
  show StableHlo.after hostOps0 (W0 (F := Ideal) m ρ c) (Proc.devRef .tc main_v16) = _
  after_results_simp
  rfl

theorem zero_eq : W1 (F := Ideal) m ρ c (Proc.devRef .tc main_cst_3) = constant (F := Ideal) S_ .f32 0x00000000#32 := by
  show StableHlo.after hostOps0 (W0 (F := Ideal) m ρ c) (Proc.devRef .tc main_cst_3) = _
  after_results_simp

/-- The inverse square roots of the degrees. -/
theorem dinv_eq : W2 (F := Ideal) m ρ c (Proc.devRef .tc main_v17) = Cert.ReferenceIdeal.Read.val_main_v17 (F := Ideal) (m ((c : Thread nD τ).loc main_arg1)) (m ((c : Thread nD τ).loc main_arg2)) := by
  show StableHlo.after hostOps0_1 (W1 (F := Ideal) m ρ c) (Proc.devRef .tc main_v17) = _
  rw [sel_of, pos_eq, pow_eq, zero_eq]
  rfl

set_option maxHeartbeats 2000000 in
/-- The third stretch builds the matrix from those four, whatever the buffers hold when it starts. -/
theorem adj_of (V : Valuation τ sig (Elt Ideal)) : StableHlo.after hostOps0_2 V (Proc.devRef .tc main_v49)
    = adj (V (Proc.devRef .tc main_v6)) (V (Proc.devRef .tc main_v7))
        (normOf (V (Proc.devRef .tc main_v17)) (V (Proc.devRef .tc main_v6)) (V (Proc.devRef .tc main_v7)) (V (Proc.devRef .tc main_v9))) := by
  after_results_simp
  rfl

/-- The reference's normalised weights are that function of its own rows, columns, weights and inverse-root degrees. -/
theorem norm_ref (a1 : (⟨Cert.ReferenceIdeal.S2x640000, .i32⟩ : BufTy).Contents (Elt Ideal)) (a2 : (⟨Cert.ReferenceIdeal.S640000x1, .f32⟩ : BufTy).Contents (Elt Ideal)) :
    normOf (Cert.ReferenceIdeal.Read.val_main_v17 (F := Ideal) a1 a2) (Cert.ReferenceIdeal.Read.val_main_v6 (F := Ideal) a1) (Cert.ReferenceIdeal.Read.val_main_v7 (F := Ideal) a1) (Cert.ReferenceIdeal.Read.val_main_v9 (F := Ideal) a2)
      = Cert.ReferenceIdeal.Read.val_main_v33 (F := Ideal) a1 a2 := rfl

theorem adj_3 : W3 (F := Ideal) m ρ c (Proc.devRef .tc main_v49)
    = adj (Cert.ReferenceIdeal.Read.val_main_v6 (F := Ideal) (m ((c : Thread nD τ).loc main_arg1))) (Cert.ReferenceIdeal.Read.val_main_v7 (F := Ideal) (m ((c : Thread nD τ).loc main_arg1)))
        (Cert.ReferenceIdeal.Read.val_main_v33 (F := Ideal) (m ((c : Thread nD τ).loc main_arg1)) (m ((c : Thread nD τ).loc main_arg2))) := by
  show StableHlo.after hostOps0_2 (W2 (F := Ideal) m ρ c) (Proc.devRef .tc main_v49) = _
  rw [adj_of, rows_eq, cols_eq, weights_eq, dinv_eq, norm_ref]

end Cert.KernelIdeal.FoldAdj

end
-- ==== Proof.KFoldKeep.lean ====
/-
  The dense arc matrix is written once, by the third stretch of host operations; the nine stretches between it and
  the first region (the pads of the features, weights and biases) leave it as it is.
-/
import proofs.«102903_j56195352101227_1_alg».proof.Proof.Gen.KernelIdeal.Frame
import Idealize.ShloMosaic.Lib.StableHlo.Run
import Idealize.ShloMosaic.Lib.ValueIdx

set_option maxRecDepth 16384

noncomputable section

namespace Cert.KernelIdeal.FoldKeep

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

theorem adj_kept : W12 (F := Ideal) m ρ c (Proc.devRef .tc main_v49) = W3 (F := Ideal) m ρ c (Proc.devRef .tc main_v49) :=
  calc W12 (F := Ideal) m ρ c (Proc.devRef .tc main_v49)
    _ = W11 (F := Ideal) m ρ c (Proc.devRef .tc main_v49) := StableHlo.after_of_forall_not_mem (b := Proc.devRef .tc main_v49) _ _ (List.forall_iff_forall_mem.mp (by
          simp only [hostOps0_11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 (F := Ideal) m ρ c (Proc.devRef .tc main_v49) := StableHlo.after_of_forall_not_mem (b := Proc.devRef .tc main_v49) _ _ (List.forall_iff_forall_mem.mp (by
          simp only [hostOps0_10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 (F := Ideal) m ρ c (Proc.devRef .tc main_v49) := StableHlo.after_of_forall_not_mem (b := Proc.devRef .tc main_v49) _ _ (List.forall_iff_forall_mem.mp (by
          simp only [hostOps0_9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 (F := Ideal) m ρ c (Proc.devRef .tc main_v49) := StableHlo.after_of_forall_not_mem (b := Proc.devRef .tc main_v49) _ _ (List.forall_iff_forall_mem.mp (by
          simp only [hostOps0_8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 (F := Ideal) m ρ c (Proc.devRef .tc main_v49) := StableHlo.after_of_forall_not_mem (b := Proc.devRef .tc main_v49) _ _ (List.forall_iff_forall_mem.mp (by
          simp only [hostOps0_7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 (F := Ideal) m ρ c (Proc.devRef .tc main_v49) := StableHlo.after_of_forall_not_mem (b := Proc.devRef .tc main_v49) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 (F := Ideal) m ρ c (Proc.devRef .tc main_v49) := StableHlo.after_of_forall_not_mem (b := Proc.devRef .tc main_v49) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 (F := Ideal) m ρ c (Proc.devRef .tc main_v49) := StableHlo.after_of_forall_not_mem (b := Proc.devRef .tc main_v49) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v49) := StableHlo.after_of_forall_not_mem (b := Proc.devRef .tc main_v49) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.FoldKeep

end
-- ==== Proof.Spec.lean ====
/-
  The function both programs compute, written over plain finite index types.

  The graph has 10000 nodes and 650000 weighted arcs (the 640000 given ones followed by one loop per node).
  Arc `e` carries a row word, a column word (signed 32-bit node numbers) and a normalised weight `nrm e`.
  One aggregation sends a node table `h` (10000 x 7) to the table whose row `r` is the sum, over the arcs whose
  row is `r`, of `nrm e` times row `col e` of `h`, plus a bias.  The whole network is two aggregations, each
  after a linear map of the node features.
-/
import Idealize.ShloMosaic.PureOps.Ideal

noncomputable section

namespace Cert.Spec

open scoped BigOperators

/-- A signed node word read as a node number, clamped into `[0, 10000)` (a word already in range is itself). -/
def cl (w : BitVec 32) : Fin 10000 := ⟨min w.toInt.toNat 9999, by omega⟩

/-- A linear map of node features: row `c` of `x` against column `j` of `W`. -/
def lin {K : ℕ} (x : Fin 10000 → Fin K → EReal) (W : Fin K → Fin 7 → EReal) (c : Fin 10000) (j : Fin 7) : EReal :=
  ∑ k : Fin K, x c k * W k j

/-- One aggregation over the arcs: `(∑ over arcs e with row e = r of nrm e * h (col e) j) + b j`. -/
def layer (rowW colW : Fin 650000 → BitVec 32) (nrm : Fin 650000 → EReal)
    (h : Fin 10000 → Fin 7 → EReal) (b : Fin 7 → EReal) (r : Fin 10000) (j : Fin 7) : EReal :=
  (∑ e ∈ Finset.univ.filter (fun e : Fin 650000 => cl (rowW e) = r), nrm e * h (cl (colW e)) j) + b j

/-- The two-layer network. -/
def out (rowW colW : Fin 650000 → BitVec 32) (nrm : Fin 650000 → EReal)
    (x : Fin 10000 → Fin 512 → EReal) (W1 : Fin 512 → Fin 7 → EReal) (b1 : Fin 7 → EReal)
    (W2 : Fin 7 → Fin 7 → EReal) (b2 : Fin 7 → EReal) : Fin 10000 → Fin 7 → EReal :=
  layer rowW colW nrm (lin (layer rowW colW nrm (lin x W1) b1) W2) b2

end Cert.Spec

end
-- ==== Proof.Algebra.lean ====
/-
  Algebra on the extended reals used by both sides of the equivalence.

  On the extended reals multiplication does not distribute over addition at the infinities, so every
  law here is stated for extended reals that are coercions of real numbers ("real" values).  The road
  is always the same: choose real witnesses, push the coercion out of products and finite sums, and
  prove the identity in the field of real numbers.
-/
import proofs.«102903_j56195352101227_1_alg».proof.Proof.Spec

noncomputable section

namespace Cert.Algebra

open scoped BigOperators

/-- The sum of two real values is real. -/
theorem real_add {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

/-- The product of two real values is real. -/
theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

/-- A finite sum of real values is real. -/
theorem real_sum {ι : Type*} (s : Finset ι) (f : ι → EReal) (h : ∀ i ∈ s, ∃ a : ℝ, f i = (a : EReal)) :
    ∃ a : ℝ, ∑ i ∈ s, f i = (a : EReal) := by
  classical
  induction s using Finset.induction_on with
  | empty => exact ⟨0, by simp⟩
  | insert a s ha ih =>
    rw [Finset.sum_insert ha]
    exact real_add (h _ (Finset.mem_insert_self _ _)) (ih fun i hi => h i (Finset.mem_insert_of_mem hi))

/-- The coercion of a finite sum of reals is the sum of the coercions. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A linear map of real features with real weights is real. -/
theorem lin_real {K : ℕ} (x : Fin 10000 → Fin K → EReal) (W : Fin K → Fin 7 → EReal)
    (hx : ∀ c k, ∃ a : ℝ, x c k = a) (hW : ∀ k j, ∃ a : ℝ, W k j = a) (c : Fin 10000) (j : Fin 7) :
    ∃ a : ℝ, Cert.Spec.lin x W c j = a := by
  unfold Cert.Spec.lin
  exact real_sum _ _ fun k _ => real_mul (hx c k) (hW k j)

/-- One aggregation of a real table with real weights and a real bias is real. -/
theorem layer_real (rowW colW : Fin 650000 → BitVec 32) (nrm : Fin 650000 → EReal)
    (h : Fin 10000 → Fin 7 → EReal) (b : Fin 7 → EReal)
    (hn : ∀ e, ∃ a : ℝ, nrm e = a) (hh : ∀ c j, ∃ a : ℝ, h c j = a) (hb : ∀ j, ∃ a : ℝ, b j = a)
    (r : Fin 10000) (j : Fin 7) :
    ∃ a : ℝ, Cert.Spec.layer rowW colW nrm h b r j = a := by
  unfold Cert.Spec.layer
  exact real_add (real_sum _ _ fun e _ => real_mul (hn e) (hh _ j)) (hb j)

/-- Over the reals: a matrix row whose entry at column `c` is the sum of the weights of the arcs
    selected by `P` that end in `c`, against a column vector `H`, is the sum over the selected arcs
    of weight times the entry of `H` at the arc's end. -/
theorem agg_real {ι κ : Type*} [Fintype ι] [Fintype κ] (P : ι → Prop) [DecidablePred P]
    (Q : ι → κ → Prop) [∀ e c, Decidable (Q e c)] (col : ι → κ) (hQ : ∀ e c, Q e c ↔ col e = c)
    (nrm : ι → ℝ) (H : κ → ℝ) :
    ∑ c : κ, (∑ e ∈ Finset.univ.filter (fun e => P e ∧ Q e c), nrm e) * H c
      = ∑ e ∈ Finset.univ.filter P, nrm e * H (col e) := by
  classical
  calc ∑ c : κ, (∑ e ∈ Finset.univ.filter (fun e => P e ∧ Q e c), nrm e) * H c
      = ∑ c : κ, ∑ e ∈ (Finset.univ.filter P).filter (fun e => col e = c), nrm e * H (col e) := by
        refine Finset.sum_congr rfl fun c _ => ?_
        rw [Finset.sum_mul, Finset.filter_filter]
        refine Finset.sum_congr (Finset.filter_congr fun e _ => by rw [hQ]) fun e he => ?_
        rw [(Finset.mem_filter.mp he).2.2]
    _ = ∑ e ∈ Finset.univ.filter P, nrm e * H (col e) := Finset.sum_fiberwise _ _ _

/-- A dense 10112-column matrix row, whose entry `(r, c)` is the sum of `nrm` over the arcs from `r` to
    `c`, against a column `H`, is the sum over the arcs out of `r` of `nrm e * H (col e)`; the columns
    `c ≥ 10000` receive no arc. -/
theorem agg (rowW colW : Fin 650000 → BitVec 32) (nrm : Fin 650000 → EReal) (hn : ∀ e, ∃ a : ℝ, nrm e = a)
    (H : Fin 10112 → EReal) (hH : ∀ c, ∃ a : ℝ, H c = a) (r : Fin 10000) :
    ∑ c : Fin 10112, (∑ e ∈ Finset.univ.filter (fun e : Fin 650000 =>
        (Cert.Spec.cl (rowW e)).val = r.val ∧ (Cert.Spec.cl (colW e)).val = c.val), nrm e) * H c
      = ∑ e ∈ Finset.univ.filter (fun e : Fin 650000 => Cert.Spec.cl (rowW e) = r),
          nrm e * H ⟨(Cert.Spec.cl (colW e)).val, by have := (Cert.Spec.cl (colW e)).isLt; omega⟩ := by
  choose n' hn' using hn
  choose H' hH' using hH
  obtain rfl : nrm = fun e => ((n' e : ℝ) : EReal) := funext hn'
  obtain rfl : H = fun c => ((H' c : ℝ) : EReal) := funext hH'
  simp only [← EReal.coe_mul, coe_sum]
  rw [EReal.coe_eq_coe_iff]
  have key := agg_real (fun e : Fin 650000 => (Cert.Spec.cl (rowW e)).val = r.val)
    (fun (e : Fin 650000) (c : Fin 10112) => (Cert.Spec.cl (colW e)).val = c.val)
    (fun e : Fin 650000 => (⟨(Cert.Spec.cl (colW e)).val,
      by have := (Cert.Spec.cl (colW e)).isLt; omega⟩ : Fin 10112))
    (fun e c => by rw [Fin.ext_iff]) n' H'
  rw [key]
  exact Finset.sum_congr (Finset.filter_congr fun e _ => by rw [Fin.ext_iff]) fun _ _ => rfl

/-- A sum whose terms beyond `n` vanish is the sum of its first `n` terms. -/
theorem pad_sum {n N : ℕ} (hnN : n ≤ N) (f : Fin N → EReal) (hz : ∀ k : Fin N, n ≤ k.val → f k = 0) :
    ∑ k : Fin N, f k = ∑ k : Fin n, f ⟨k.val, by omega⟩ := by
  let g : ℕ → EReal := fun k => if h : k < N then f ⟨k, h⟩ else 0
  have h1 : ∑ k : Fin N, f k = ∑ k : Fin N, g k.val :=
    Finset.sum_congr rfl fun k _ => by simp [g, k.isLt]
  have h2 : ∑ k : Fin n, f ⟨k.val, by omega⟩ = ∑ k : Fin n, g k.val :=
    Finset.sum_congr rfl fun k _ => by
      have hk : k.val < N := by omega
      simp [g, hk]
  rw [h1, h2, Fin.sum_univ_eq_sum_range g N, Fin.sum_univ_eq_sum_range g n]
  symm
  apply Finset.sum_subset
  · intro x hx
    rw [Finset.mem_range] at hx ⊢
    omega
  · intro x hx hx'
    rw [Finset.mem_range] at hx hx'
    simp only [g, dif_pos hx]
    exact hz _ (by simpa using hx')

end Cert.Algebra

end
-- ==== Proof.KValue.lean ====
/-
  The kernel's result is the specification.

  The kernel pads the node features (to 10112 rows), both weight matrices and both biases (to 128 columns) with zeros,
  and runs two rounds of: a product with the weight matrix, a product with the dense 10112 x 10112 matrix whose entry
  `(r, c)` is the sum of the normalised weights of the arcs from `r` to `c`, and the bias added along the rows; the
  result is cut back to the 10000 nodes and 7 features. Read at node `r` and feature `j`:
    * row `r` of the dense matrix against a column of a table is the sum over the arcs out of `r` of weight times the
      table at the arc's end (`Cert.Algebra.agg`; the columns beyond 10000 receive no arc): one aggregation of the
      specification over the unpadded part of the table (`agg_layer`);
    * a product with a padded weight matrix is, on the unpadded part, the linear map of the specification: the rows
      of the second weight matrix beyond the 7th are zero, so the sum over 128 features is the sum over 7
      (`Cert.Algebra.pad_sum`).
  The extended reals do not distribute at the infinities, so the first step needs every entry it multiplies to be a
  real number: all the padded tables are real everywhere, because the inputs and the arc weights are.
-/
import proofs.«102903_j56195352101227_1_alg».proof.Proof.KDefs
import proofs.«102903_j56195352101227_1_alg».proof.Proof.KBias
import proofs.«102903_j56195352101227_1_alg».proof.Proof.KReg0
import proofs.«102903_j56195352101227_1_alg».proof.Proof.KReg1
import proofs.«102903_j56195352101227_1_alg».proof.Proof.KReg2
import proofs.«102903_j56195352101227_1_alg».proof.Proof.KReg3
import proofs.«102903_j56195352101227_1_alg».proof.Proof.Algebra
import proofs.«102903_j56195352101227_1_alg».proof.Proof.Spec
import Idealize.ShloMosaic.Lib.KernelVsHost
import Idealize.ShloMosaic.Lib.ValueIdx
import Idealize.ShloMosaic.Lib.Pipeline.Value

noncomputable section

namespace Cert.KValue

open Idealize.ShloMosaic ValueIdx
open Cert.KernelIdeal Cert.KernelIdeal.Gen Cert.KernelIdeal.Terms
open scoped BigOperators

/-! ## Node and feature numbers inside the padded ranges -/

/-- Node `c` as a row of a padded table of 10112 rows. -/
abbrev upN (c : Fin 10000) : Fin 10112 := ⟨c.val, by have := c.isLt; omega⟩
/-- Feature `j` as a column of a padded table of 128 columns. -/
abbrev up7 (j : Fin 7) : Fin 128 := ⟨j.val, by have := j.isLt; omega⟩

/-! ## The pads, the bias rows and the final slice, read at an index -/

/-- The value the pads fill with is zero. -/
theorem padZero_apply (i : S_.Idx) : padZero i = 0 := by
  show (((0#32 : BitVec 32).toInt : ℝ) : EReal) = 0
  have h0 : (0#32 : BitVec 32).toInt = 0 := by decide
  rw [h0, Int.cast_zero, EReal.coe_zero]

section Pads
variable {α : Type}

/-- A rank-2 array padded at the high ends only, read inside the array, is the array. -/
theorem pad2_inside {n0 n1 m0 m1 : Nat} (hi : Fin 2 → Nat) (x : (⟨2, ![n0, n1]⟩ : Shape).Idx → α) (v : S_.Idx → α)
    (h : (⟨2, ![n0, n1]⟩ : Shape).Pads (![0, 0] : Fin 2 → Nat) hi ![0, 0] ⟨2, ![m0, m1]⟩) (hu : 0 < S_.numel)
    (c : Fin n0) (k : Fin n1) (hc : c.val < m0) (hk : k.val < m1) :
    pad ⟨2, ![m0, m1]⟩ ![0, 0] hi ![0, 0] x v h hu (ix2 ⟨c.val, hc⟩ ⟨k.val, hk⟩) = x (ix2 c k) :=
  pad_apply_of_inside _ _ _ x v h hu _ (ix2 c k) (fun a => match a with
    | ⟨0, _⟩ => by show c.val = 0 + c.val * (0 + 1); omega
    | ⟨1, _⟩ => by show k.val = 0 + k.val * (0 + 1); omega)

/-- A rank-2 array padded at the high ends only, read at a row beyond the array's, is the padding value. -/
theorem pad2_row_outside {n0 n1 m0 m1 : Nat} (hi : Fin 2 → Nat) (x : (⟨2, ![n0, n1]⟩ : Shape).Idx → α) (v : S_.Idx → α)
    (h : (⟨2, ![n0, n1]⟩ : Shape).Pads (![0, 0] : Fin 2 → Nat) hi ![0, 0] ⟨2, ![m0, m1]⟩) (hu : 0 < S_.numel)
    (c : Fin m0) (k : Fin m1) (hc : n0 ≤ c.val) :
    pad ⟨2, ![m0, m1]⟩ ![0, 0] hi ![0, 0] x v h hu (ix2 c k) = v (Shape.Idx.first hu) :=
  pad_apply_of_not_inside _ _ _ x v h hu _ (0 : Fin 2) (by
    intro hin
    have e : (c.val - 0) / (0 + 1) < n0 := hin.2.2
    rw [Nat.sub_zero, Nat.div_one] at e
    omega)

/-- A rank-1 array padded at the high end only, read inside the array, is the array. -/
theorem pad1_inside {n m : Nat} (hi : Fin 1 → Nat) (x : (⟨1, ![n]⟩ : Shape).Idx → α) (v : S_.Idx → α)
    (h : (⟨1, ![n]⟩ : Shape).Pads (![0] : Fin 1 → Nat) hi ![0] ⟨1, ![m]⟩) (hu : 0 < S_.numel)
    (j : Fin n) (hj : j.val < m) :
    pad ⟨1, ![m]⟩ ![0] hi ![0] x v h hu (ix1 ⟨j.val, hj⟩) = x (ix1 j) :=
  pad_apply_of_inside _ _ _ x v h hu _ (ix1 j) (fun a => match a with
    | ⟨0, _⟩ => by show j.val = 0 + j.val * (0 + 1); omega)

/-- A padded array of real values, padded with a real value, has real values everywhere. -/
theorem pad_real {s t u : Shape} (lo hi interior : Fin s.rank → Nat) (x : s.Idx → EReal) (v : u.Idx → EReal)
    (h : s.Pads lo hi interior t) (hu : 0 < u.numel)
    (hx : ∀ i, ∃ a : ℝ, x i = (a : EReal)) (hv : ∀ i, ∃ a : ℝ, v i = (a : EReal)) (j : t.Idx) :
    ∃ a : ℝ, pad t lo hi interior x v h hu j = (a : EReal) := by
  unfold pad
  split
  · exact hx _
  · exact hv _

end Pads

/-- The padding value is real. -/
theorem padZero_real (i : S_.Idx) : ∃ a : ℝ, padZero i = (a : EReal) := ⟨0, by rw [padZero_apply, EReal.coe_zero]⟩

/-- A bias laid along the rows reads the bias at the column. -/
theorem biasRows_apply (b : FVec Ideal S128 .f32) (c : Fin 10112) (q : Fin 128) :
    biasRows b (ix2 c q) = b (ix1 q) := by
  unfold biasRows
  rw [broadcastInDim_apply _ bcast_S1x128_S10112x128_0_1 _ (ix2 c q) (ix2 (0 : Fin 1) q) (fun a => match a with
    | ⟨0, _⟩ => by show 0 = if (1 : Nat) = 1 then 0 else c.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The final slice reads the padded table at the same row and column. -/
theorem slice_apply {α : Type} (x : S10112x128.Idx → α) (r : Fin 10000) (j : Fin 7) :
    extractStridedSlice S10000x7 ![0, 0] x slices_S10112x128_S10000x7_0_0 (ix2 r j) = x (ix2 (upN r) (up7 j)) :=
  extractStridedSlice_apply _ x slices_S10112x128_S10000x7_0_0 (ix2 r j) (ix2 (upN r) (up7 j)) (fun a => match a with
    | ⟨0, _⟩ => by show r.val = 0 + r.val; omega
    | ⟨1, _⟩ => by show j.val = 0 + j.val; omega)

/-! ## Real tables -/

/-- A sum of products of real values is real. -/
theorem sum_mul_real {K : Nat} (f g : Fin K → EReal) (hf : ∀ k, ∃ a : ℝ, f k = (a : EReal))
    (hg : ∀ k, ∃ a : ℝ, g k = (a : EReal)) : ∃ a : ℝ, ∑ k : Fin K, f k * g k = (a : EReal) :=
  Cert.Algebra.real_sum _ _ fun k _ => Cert.Algebra.real_mul (hf k) (hg k)

theorem prod0_real (X : S10112x512.Idx → EReal) (W : S512x128.Idx → EReal)
    (hX : ∀ i, ∃ a : ℝ, X i = (a : EReal)) (hW : ∀ i, ∃ a : ℝ, W i = (a : EReal)) (i : S10112x128.Idx) :
    ∃ a : ℝ, Region0.prod X W i = (a : EReal) := by
  rw [Region0.prod_apply]; exact sum_mul_real _ _ (fun k => hX _) (fun k => hW _)

theorem prod1_real (X : S10112x10112.Idx → EReal) (W : S10112x128.Idx → EReal)
    (hX : ∀ i, ∃ a : ℝ, X i = (a : EReal)) (hW : ∀ i, ∃ a : ℝ, W i = (a : EReal)) (i : S10112x128.Idx) :
    ∃ a : ℝ, Region1.prod X W i = (a : EReal) := by
  rw [Region1.prod_apply]; exact sum_mul_real _ _ (fun k => hX _) (fun k => hW _)

theorem prod2_real (X : S10112x128.Idx → EReal) (W : S128x128.Idx → EReal)
    (hX : ∀ i, ∃ a : ℝ, X i = (a : EReal)) (hW : ∀ i, ∃ a : ℝ, W i = (a : EReal)) (i : S10112x128.Idx) :
    ∃ a : ℝ, Region2.prod X W i = (a : EReal) := by
  rw [Region2.prod_apply]; exact sum_mul_real _ _ (fun k => hX _) (fun k => hW _)

theorem prod3_real (X : S10112x10112.Idx → EReal) (W : S10112x128.Idx → EReal)
    (hX : ∀ i, ∃ a : ℝ, X i = (a : EReal)) (hW : ∀ i, ∃ a : ℝ, W i = (a : EReal)) (i : S10112x128.Idx) :
    ∃ a : ℝ, Region3.prod X W i = (a : EReal) := by
  rw [Region3.prod_apply]; exact sum_mul_real _ _ (fun k => hX _) (fun k => hW _)

theorem biasRows_real (b : FVec Ideal S128 .f32) (hb : ∀ i, ∃ a : ℝ, b i = (a : EReal)) (i : S10112x128.Idx) :
    ∃ a : ℝ, biasRows b i = (a : EReal) := by
  obtain ⟨p, q, rfl⟩ : ∃ (p : Fin 10112) (q : Fin 128), i = ix2 p q := ⟨i 0, i 1, eq_ix2 i⟩
  rw [biasRows_apply]; exact hb _

/-- The dense matrix of summed arc weights is real when the weights are. -/
theorem adj_real (A : FVec Ideal S10112x10112 .bf16) (rowW colW : Fin 650000 → BitVec 32) (nrm : Fin 650000 → EReal)
    (hA : ∀ r c : Fin 10112, A (ix2 r c) = ∑ e ∈ Finset.univ.filter (fun e : Fin 650000 =>
      (Cert.Spec.cl (rowW e)).val = r.val ∧ (Cert.Spec.cl (colW e)).val = c.val), nrm e)
    (hn : ∀ e, ∃ x : ℝ, nrm e = (x : EReal)) (i : S10112x10112.Idx) : ∃ a : ℝ, A i = (a : EReal) := by
  obtain ⟨p, q, rfl⟩ : ∃ (p : Fin 10112) (q : Fin 10112), i = ix2 p q := ⟨i 0, i 1, eq_ix2 i⟩
  rw [hA]; exact Cert.Algebra.real_sum _ _ fun e _ => hn e

/-! ## One padded aggregation is the specification's -/

/-- The dense matrix against a real padded table `G`, plus a bias along the rows, read at node `r` and feature `j`:
    row `r` of the matrix is the arcs out of `r` summed by their ends, so the product is the sum over those arcs of
    weight times `G` at the arc's end — the specification's aggregation of the unpadded part of `G`. -/
theorem agg_layer (A : FVec Ideal S10112x10112 .bf16) (rowW colW : Fin 650000 → BitVec 32) (nrm : Fin 650000 → EReal)
    (hA : ∀ r c : Fin 10112, A (ix2 r c) = ∑ e ∈ Finset.univ.filter (fun e : Fin 650000 =>
      (Cert.Spec.cl (rowW e)).val = r.val ∧ (Cert.Spec.cl (colW e)).val = c.val), nrm e)
    (hn : ∀ e, ∃ x : ℝ, nrm e = (x : EReal))
    (P G : S10112x128.Idx → EReal) (B : FVec Ideal S128 .f32)
    (hP : ∀ i, P i = ∑ k : Fin 10112, A (ix2 (i 0) k) * G (ix2 k (i 1)))
    (hG : ∀ i, ∃ a : ℝ, G i = (a : EReal)) (r : Fin 10000) (j : Fin 7) :
    P (ix2 (upN r) (up7 j)) + biasRows B (ix2 (upN r) (up7 j))
      = Cert.Spec.layer rowW colW nrm (fun c j => G (ix2 (upN c) (up7 j))) (fun j => B (ix1 (up7 j))) r j := by
  rw [hP, biasRows_apply]
  unfold Cert.Spec.layer
  refine congrArg (fun t => t + B (ix1 (up7 j))) ?_
  have h1 : ∀ k : Fin 10112, A (ix2 (upN r) k) * G (ix2 k (up7 j))
      = (∑ e ∈ Finset.univ.filter (fun e : Fin 650000 =>
          (Cert.Spec.cl (rowW e)).val = r.val ∧ (Cert.Spec.cl (colW e)).val = k.val), nrm e) * G (ix2 k (up7 j)) :=
    fun k => by rw [hA (upN r) k]
  refine (Finset.sum_congr rfl fun k _ => h1 k).trans ?_
  exact Cert.Algebra.agg rowW colW nrm hn (fun c => G (ix2 c (up7 j))) (fun c => hG _) r

/-! ## The kernel's value over any padded tables that read as the unpadded ones -/

/-- The four tables of the kernel named: the first product `G1`, the first aggregation `H1`, the second product `G2`
    and the second aggregation `H2`. On the unpadded part `H2` is the specification. -/
theorem value_of_named_tables
    (XP : FVec Ideal S10112x512 .f32) (W1P : FVec Ideal S512x128 .f32) (B1P : FVec Ideal S128 .f32)
    (W2P : FVec Ideal S128x128 .f32) (B2P : FVec Ideal S128 .f32)
    (x : Fin 10000 → Fin 512 → EReal) (W1 : Fin 512 → Fin 7 → EReal) (b1 : Fin 7 → EReal)
    (W2 : Fin 7 → Fin 7 → EReal) (b2 : Fin 7 → EReal)
    (hXP : ∀ c k, XP (ix2 (upN c) k) = x c k) (hW1P : ∀ k j, W1P (ix2 k (up7 j)) = W1 k j)
    (hB1P : ∀ j, B1P (ix1 (up7 j)) = b1 j) (hW2P : ∀ k j, W2P (ix2 (up7 k) (up7 j)) = W2 k j)
    (hW2P0 : ∀ (k q : Fin 128), 7 ≤ k.val → W2P (ix2 k q) = 0) (hB2P : ∀ j, B2P (ix1 (up7 j)) = b2 j)
    (rXP : (∀ i : S10112x512.Idx, ∃ a : ℝ, XP i = (a : EReal))) (rW1P : (∀ i : S512x128.Idx, ∃ a : ℝ, W1P i = (a : EReal))) (rB1P : (∀ i : S128.Idx, ∃ a : ℝ, B1P i = (a : EReal)))
    (rW2P : (∀ i : S128x128.Idx, ∃ a : ℝ, W2P i = (a : EReal))) (rB2P : (∀ i : S128.Idx, ∃ a : ℝ, B2P i = (a : EReal)))
    (A : FVec Ideal S10112x10112 .bf16) (rowW colW : Fin 650000 → BitVec 32) (nrm : Fin 650000 → EReal)
    (hA : ∀ r c : Fin 10112, A (ix2 r c) = ∑ e ∈ Finset.univ.filter (fun e : Fin 650000 =>
      (Cert.Spec.cl (rowW e)).val = r.val ∧ (Cert.Spec.cl (colW e)).val = c.val), nrm e)
    (hn : ∀ e, ∃ x : ℝ, nrm e = (x : EReal))
    (G1 H1 G2 H2 : FVec Ideal S10112x128 .f32)
    (hG1 : G1 = Region0.prod XP W1P) (hH1 : H1 = addf (Region1.prod A G1) (biasRows B1P))
    (hG2 : G2 = Region2.prod H1 W2P) (hH2 : H2 = addf (Region3.prod A G2) (biasRows B2P))
    (r : Fin 10000) (j : Fin 7) :
    H2 (ix2 (upN r) (up7 j)) = Cert.Spec.out rowW colW nrm x W1 b1 W2 b2 r j := by
  have rA := adj_real A rowW colW nrm hA hn
  have rG1 : (∀ i : S10112x128.Idx, ∃ a : ℝ, G1 i = (a : EReal)) := by rw [hG1]; exact prod0_real XP W1P rXP rW1P
  have rH1 : (∀ i : S10112x128.Idx, ∃ a : ℝ, H1 i = (a : EReal)) := by
    intro i
    rw [hH1, addf_apply]
    exact Cert.Algebra.real_add (prod1_real A G1 rA rG1 i) (biasRows_real B1P rB1P i)
  have rG2 : (∀ i : S10112x128.Idx, ∃ a : ℝ, G2 i = (a : EReal)) := by rw [hG2]; exact prod2_real H1 W2P rH1 rW2P
  -- the first linear map, on the unpadded part
  have eG1 : (fun (c : Fin 10000) (j : Fin 7) => G1 (ix2 (upN c) (up7 j))) = Cert.Spec.lin x W1 := by
    funext c j
    rw [hG1, Region0.prod_apply]
    unfold Cert.Spec.lin
    exact Finset.sum_congr rfl fun k _ => congrArg₂ (fun a b : EReal => a * b) (hXP c k) (hW1P k j)
  -- the first aggregation, on the unpadded part
  have eH1 : ∀ (c : Fin 10000) (k : Fin 7), H1 (ix2 (upN c) (up7 k))
      = Cert.Spec.layer rowW colW nrm (Cert.Spec.lin x W1) b1 c k := by
    intro c k
    have key := agg_layer A rowW colW nrm hA hn (Region1.prod A G1) G1 B1P (Region1.prod_apply A G1) rG1 c k
    rw [eG1, (funext hB1P : (fun j => B1P (ix1 (up7 j))) = b1)] at key
    rw [hH1, addf_apply]
    exact key
  -- the second linear map: the padded rows of the second weight matrix are zero
  have eG2 : (fun (c : Fin 10000) (j : Fin 7) => G2 (ix2 (upN c) (up7 j)))
      = Cert.Spec.lin (Cert.Spec.layer rowW colW nrm (Cert.Spec.lin x W1) b1) W2 := by
    funext c j
    have hps := Cert.Algebra.pad_sum (n := 7) (N := 128) (by omega)
      (fun k : Fin 128 => H1 (ix2 (upN c) k) * W2P (ix2 k (up7 j)))
      (fun k hk => by show _ * W2P (ix2 k (up7 j)) = 0; rw [hW2P0 k _ hk, mul_zero])
    rw [hG2]
    refine (Region2.prod_apply H1 W2P (ix2 (upN c) (up7 j))).trans (hps.trans ?_)
    unfold Cert.Spec.lin
    exact Finset.sum_congr rfl fun k _ => congrArg₂ (fun a b : EReal => a * b) (eH1 c k) (hW2P k j)
  have key := agg_layer A rowW colW nrm hA hn (Region3.prod A G2) G2 B2P (Region3.prod_apply A G2) rG2 r j
  rw [eG2, (funext hB2P : (fun j => B2P (ix1 (up7 j))) = b2)] at key
  rw [hH2, addf_apply]
  unfold Cert.Spec.out
  exact key

theorem value_of_tables
    (XP : FVec Ideal S10112x512 .f32) (W1P : FVec Ideal S512x128 .f32) (B1P : FVec Ideal S128 .f32)
    (W2P : FVec Ideal S128x128 .f32) (B2P : FVec Ideal S128 .f32)
    (x : Fin 10000 → Fin 512 → EReal) (W1 : Fin 512 → Fin 7 → EReal) (b1 : Fin 7 → EReal)
    (W2 : Fin 7 → Fin 7 → EReal) (b2 : Fin 7 → EReal)
    (hXP : ∀ c k, XP (ix2 (upN c) k) = x c k) (hW1P : ∀ k j, W1P (ix2 k (up7 j)) = W1 k j)
    (hB1P : ∀ j, B1P (ix1 (up7 j)) = b1 j) (hW2P : ∀ k j, W2P (ix2 (up7 k) (up7 j)) = W2 k j)
    (hW2P0 : ∀ (k q : Fin 128), 7 ≤ k.val → W2P (ix2 k q) = 0) (hB2P : ∀ j, B2P (ix1 (up7 j)) = b2 j)
    (rXP : (∀ i : S10112x512.Idx, ∃ a : ℝ, XP i = (a : EReal))) (rW1P : (∀ i : S512x128.Idx, ∃ a : ℝ, W1P i = (a : EReal))) (rB1P : (∀ i : S128.Idx, ∃ a : ℝ, B1P i = (a : EReal)))
    (rW2P : (∀ i : S128x128.Idx, ∃ a : ℝ, W2P i = (a : EReal))) (rB2P : (∀ i : S128.Idx, ∃ a : ℝ, B2P i = (a : EReal)))
    (A : FVec Ideal S10112x10112 .bf16) (rowW colW : Fin 650000 → BitVec 32) (nrm : Fin 650000 → EReal)
    (hA : ∀ r c : Fin 10112, A (ix2 r c) = ∑ e ∈ Finset.univ.filter (fun e : Fin 650000 =>
      (Cert.Spec.cl (rowW e)).val = r.val ∧ (Cert.Spec.cl (colW e)).val = c.val), nrm e)
    (hn : ∀ e, ∃ x : ℝ, nrm e = (x : EReal))
    (r : Fin 10000) (j : Fin 7) :
    (addf (Region3.prod A (Region2.prod (addf (Region1.prod A (Region0.prod XP W1P)) (biasRows B1P)) W2P)) (biasRows B2P)) (ix2 (upN r) (up7 j))
      = Cert.Spec.out rowW colW nrm x W1 b1 W2 b2 r j :=
  value_of_named_tables XP W1P B1P W2P B2P x W1 b1 W2 b2 hXP hW1P hB1P hW2P hW2P0 hB2P rXP rW1P rB1P rW2P rB2P
    A rowW colW nrm hA hn _ _ _ _ rfl rfl rfl rfl r j

/-! ## The kernel's result is the specification -/

/-- THE KERNEL'S RESULT IS THE SPECIFICATION: the inputs padded with zeros, two rounds of (product with the weights,
    product with the dense matrix of summed arc weights, bias), cut back to the 10000 nodes and 7 features. -/
theorem kernel_value (a0 : FVec Ideal S10000x512 .f32) (a4 : FVec Ideal S512x7 .f32) (a5 : FVec Ideal S7 .f32)
    (a6 : FVec Ideal S7x7 .f32) (a7 : FVec Ideal S7 .f32)
    (rowW colW : Fin 650000 → BitVec 32) (nrm : Fin 650000 → EReal) (A : FVec Ideal S10112x10112 .bf16)
    (hA : ∀ r c : Fin 10112, A (ix2 r c) = ∑ e ∈ Finset.univ.filter (fun e : Fin 650000 =>
      (Cert.Spec.cl (rowW e)).val = r.val ∧ (Cert.Spec.cl (colW e)).val = c.val), nrm e)
    (hn : ∀ e, ∃ x : ℝ, nrm e = (x : EReal))
    (h0 : ∀ i, ∃ x : ℝ, a0 i = (x : EReal)) (h4 : ∀ i, ∃ x : ℝ, a4 i = (x : EReal))
    (h5 : ∀ i, ∃ x : ℝ, a5 i = (x : EReal)) (h6 : ∀ i, ∃ x : ℝ, a6 i = (x : EReal))
    (h7 : ∀ i, ∃ x : ℝ, a7 i = (x : EReal)) (r : Fin 10000) (j : Fin 7) :
    extractStridedSlice S10000x7 ![0, 0] (addf (Region3.prod A (Region2.prod (addf (Region1.prod A (Region0.prod (pad S10112x512 ![0, 0] ![112, 0] ![0, 0] a0 padZero pads_S10000x512_S10112x512_01120_000 h_S_) (pad S512x128 ![0, 0] ![0, 121] ![0, 0] a4 padZero pads_S512x7_S512x128_000_01210 h_S_))) (biasRows (pad S128 ![0] ![121] ![0] a5 padZero pads_S7_S128_01210 h_S_))) (pad S128x128 ![0, 0] ![121, 121] ![0, 0] a6 padZero pads_S7x7_S128x128_01210_01210 h_S_))) (biasRows (pad S128 ![0] ![121] ![0] a7 padZero pads_S7_S128_01210 h_S_))) slices_S10112x128_S10000x7_0_0 (ix2 r j)
      = Cert.Spec.out rowW colW nrm (fun c k => a0 (ix2 c k)) (fun k j => a4 (ix2 k j)) (fun j => a5 (ix1 j))
          (fun k j => a6 (ix2 k j)) (fun j => a7 (ix1 j)) r j := by
  rw [slice_apply]
  have e1 : ∀ (c : Fin 10000) (k : Fin 512), (pad S10112x512 ![0, 0] ![112, 0] ![0, 0] a0 padZero pads_S10000x512_S10112x512_01120_000 h_S_) (ix2 (upN c) k) = a0 (ix2 c k) :=
    fun c k => pad2_inside _ a0 padZero pads_S10000x512_S10112x512_01120_000 h_S_ c k _ _
  have e2 : ∀ (k : Fin 512) (j : Fin 7), (pad S512x128 ![0, 0] ![0, 121] ![0, 0] a4 padZero pads_S512x7_S512x128_000_01210 h_S_) (ix2 k (up7 j)) = a4 (ix2 k j) :=
    fun k j => pad2_inside _ a4 padZero pads_S512x7_S512x128_000_01210 h_S_ k j _ _
  have e3 : ∀ j : Fin 7, (pad S128 ![0] ![121] ![0] a5 padZero pads_S7_S128_01210 h_S_) (ix1 (up7 j)) = a5 (ix1 j) :=
    fun j => pad1_inside _ a5 padZero pads_S7_S128_01210 h_S_ j _
  have e4 : ∀ k j : Fin 7, (pad S128x128 ![0, 0] ![121, 121] ![0, 0] a6 padZero pads_S7x7_S128x128_01210_01210 h_S_) (ix2 (up7 k) (up7 j)) = a6 (ix2 k j) :=
    fun k j => pad2_inside _ a6 padZero pads_S7x7_S128x128_01210_01210 h_S_ k j _ _
  have e5 : ∀ k q : Fin 128, 7 ≤ k.val → (pad S128x128 ![0, 0] ![121, 121] ![0, 0] a6 padZero pads_S7x7_S128x128_01210_01210 h_S_) (ix2 k q) = 0 :=
    fun k q hk => (pad2_row_outside _ a6 padZero pads_S7x7_S128x128_01210_01210 h_S_ k q hk).trans (padZero_apply _)
  have e6 : ∀ j : Fin 7, (pad S128 ![0] ![121] ![0] a7 padZero pads_S7_S128_01210 h_S_) (ix1 (up7 j)) = a7 (ix1 j) :=
    fun j => pad1_inside _ a7 padZero pads_S7_S128_01210 h_S_ j _
  have r1 := pad_real _ _ _ a0 padZero pads_S10000x512_S10112x512_01120_000 h_S_ h0 padZero_real
  have r2 := pad_real _ _ _ a4 padZero pads_S512x7_S512x128_000_01210 h_S_ h4 padZero_real
  have r3 := pad_real _ _ _ a5 padZero pads_S7_S128_01210 h_S_ h5 padZero_real
  have r4 := pad_real _ _ _ a6 padZero pads_S7x7_S128x128_01210_01210 h_S_ h6 padZero_real
  have r5 := pad_real _ _ _ a7 padZero pads_S7_S128_01210 h_S_ h7 padZero_real
  exact value_of_tables _ _ _ _ _
    (fun c k => a0 (ix2 c k)) (fun k j => a4 (ix2 k j)) (fun j => a5 (ix1 j)) (fun k j => a6 (ix2 k j)) (fun j => a7 (ix1 j))
    e1 e2 e3 e4 e5 e6 r1 r2 r3 r4 r5 A rowW colW nrm hA hn r j

end Cert.KValue

end
-- ==== Proof.AdjRead.lean ====
/-
  The dense matrix the kernel program's host side accumulates, read at an entry.

  The matrix starts as zeros; arc `e` adds its normalised weight at (row word, column word), each word
  having the padded size added when it is negative.  When every word lies in `[0, 10000)` no word is
  changed and every arc lands inside the 10112 x 10112 matrix, so entry `(r, c)` is the sum of the weights
  of the arcs whose row word is `r` and whose column word is `c`.
-/
import proofs.«102903_j56195352101227_1_alg».proof.Proof.KDefs
import proofs.«102903_j56195352101227_1_alg».proof.Proof.Spec
import Idealize.ShloMosaic.Lib.ValueIdx
import Idealize.ShloMosaic.Lib.Pipeline.Value
import Idealize.ShloMosaic.Lib.Affine
import Idealize.ShloMosaic.PureOps.Ideal.Laws

noncomputable section

namespace Cert.AdjRead

open Idealize.ShloMosaic ValueIdx Cert.KernelIdeal Cert.KernelIdeal.Gen Cert.KernelIdeal.Terms

open scoped BigOperators

/-- The scatter's dimension numbers: no window axes, both operand axes inserted, the index vector (row, column)
    on axis 1 of the index table. -/
abbrev D : ScatterDims S10112x10112 S650000x2 S650000 := scatter_S10112x10112_S650000x2_S650000_n_01_01_1

/-- The index table: column 0 the wrapped row words, column 1 the wrapped column words. -/
def idxT (rowv colv : IVec S650000 32) : IVec S650000x2 32 :=
  concatenate S650000x2 1 [⟨S650000x1, broadcastInDim S650000x1 ![0] bcast_S650000_S650000x1_0 (wrap rowv)⟩,
      ⟨S650000x1, broadcastInDim S650000x1 ![0] bcast_S650000_S650000x1_0 (wrap colv)⟩] concatenates_S650000x1_S650000x1_S650000x2_d1

theorem adjAcc_eq (rowv colv : IVec S650000 32) (nrm : FVec Ideal S650000 .f32) (i : S10112x10112.Idx) :
    adj rowv colv nrm i
      = (broadcastInDim S10112x10112 ![] bcast_S_S10112x10112 (constant (F := Ideal) S_ .f32 0x00000000#32)) i
        + ∑ j ∈ Finset.univ.filter (fun j => D.resultIdx? j (idxT rowv colv) = some i), nrm j := rfl

/-- Arc `j` reads component `k` of its start at table index `(j, k)`. -/
theorem siIdx_0 (j : S650000.Idx) (k : Fin D.scatterDimsToOperandDims.length) : ((D.siIdx j k) 0).val = (j 0).val := rfl
theorem siIdx_1 (j : S650000.Idx) (k : Fin D.scatterDimsToOperandDims.length) : ((D.siIdx j k) 1).val = k.val := rfl

/-- Row words: component 0 of arc `j`'s start is read off column 0 of the table. -/
theorem idxT_row (rowv colv : IVec S650000 32) (j : S650000.Idx) (h0 : 0 < D.scatterDimsToOperandDims.length) :
    idxT rowv colv (D.siIdx j ⟨0, h0⟩) = wrap rowv j := by
  unfold idxT
  refine (concatenate_pair_apply_left (t := S650000x2) (s₁ := S650000x1) (s₂ := S650000x1) 1 _ _
    concatenates_S650000x1_S650000x1_S650000x2_d1 (D.siIdx j ⟨0, h0⟩) rfl (ix2 (j 0) (0 : Fin 1) : S650000x1.Idx) ?_).trans ?_
  · intro b
    fin_cases b
    · exact (siIdx_0 j _).symm
    · exact (siIdx_1 j ⟨0, h0⟩).symm
  · exact broadcastInDim_apply _ _ _ _ j (fun a => by fin_cases a; rfl)

/-- Column words: component 1 of arc `j`'s start is read off column 1 of the table. -/
theorem idxT_col (rowv colv : IVec S650000 32) (j : S650000.Idx) (h1 : 1 < D.scatterDimsToOperandDims.length) :
    idxT rowv colv (D.siIdx j ⟨1, h1⟩) = wrap colv j := by
  unfold idxT
  refine (concatenate_pair_apply_right (t := S650000x2) (s₁ := S650000x1) (s₂ := S650000x1) 1 _ _
    concatenates_S650000x1_S650000x1_S650000x2_d1 (D.siIdx j ⟨1, h1⟩) rfl rfl (ix2 (j 0) (0 : Fin 1) : S650000x1.Idx) ?_ ?_).trans ?_
  · intro b hb
    fin_cases b
    · exact (siIdx_0 j _).symm
    · exact absurd rfl hb
  · exact (siIdx_1 j ⟨1, h1⟩).symm
  · exact broadcastInDim_apply _ _ _ _ j (fun a => by fin_cases a; rfl)

theorem toInt_zero : (0#32 : BitVec 32).toInt = 0 := by decide

/-- A nonnegative word is not changed by the wrap. -/
theorem wrap_of_nonneg (v : IVec S650000 32) (j : S650000.Idx) (h : 0 ≤ (v j).toInt) : wrap v j = v j := by
  have hc : ¬ IntOp.cmpi .slt (v j) (0#32) = 1#1 := by
    rw [IntOp.cmpi_slt, toInt_zero]; omega
  show Scalar.select (IntOp.cmpi .slt (v j) (0#32)) _ (v j) = v j
  exact if_neg hc

/-- When an update lands inside the operand, its result index is `i` exactly when its landing coordinates are `i`'s. -/
theorem resultIdx?_eq_some_iff {s si u : Shape} (d : ScatterDims s si u) {w : Nat} (j : u.Idx) (idx : IVec si w) (i : s.Idx)
    (h : ∀ a, 0 ≤ d.start j idx a + d.window j a ∧ d.start j idx a + d.window j a < s.size a) :
    d.resultIdx? j idx = some i ↔ ∀ a, (d.start j idx a + d.window j a).toNat = (i a).val := by
  unfold ScatterDims.resultIdx?
  rw [dif_pos h]
  constructor
  · intro e a
    rw [← Option.some.inj e]
  · intro e
    exact congrArg some (funext fun a => Fin.ext (e a))

/-- A word in range is its own node number. -/
theorem cl_val (w : BitVec 32) (h : 0 ≤ w.toInt ∧ w.toInt < 10000) : (Cert.Spec.cl w).val = w.toInt.toNat := by
  show min w.toInt.toNat 9999 = w.toInt.toNat
  omega

/-- The start on operand axis 0 is the row word, on axis 1 the column word; the window coordinate is 0. -/
theorem start_0 (rowv colv : IVec S650000 32) (j : S650000.Idx) (h : 0 ≤ (rowv j).toInt) :
    D.start j (idxT rowv colv) 0 = (rowv j).toInt := by
  show (idxT rowv colv (D.siIdx j ⟨0, by decide⟩)).toInt = _
  rw [idxT_row, wrap_of_nonneg _ _ h]

theorem start_1 (rowv colv : IVec S650000 32) (j : S650000.Idx) (h : 0 ≤ (colv j).toInt) :
    D.start j (idxT rowv colv) 1 = (colv j).toInt := by
  show (idxT rowv colv (D.siIdx j ⟨1, by decide⟩)).toInt = _
  rw [idxT_col, wrap_of_nonneg _ _ h]

theorem window_zero (j : S650000.Idx) (a : Fin S10112x10112.rank) : D.window j a = 0 := rfl

/-- Arc `j` lands at entry `(r, c)` exactly when its row word is `r` and its column word is `c`. -/
theorem resultIdx_iff (rowv colv : IVec S650000 32)
    (hrow : ∀ e, 0 ≤ (rowv e).toInt ∧ (rowv e).toInt < 10000) (hcol : ∀ e, 0 ≤ (colv e).toInt ∧ (colv e).toInt < 10000)
    (j : S650000.Idx) (r c : Fin 10112) :
    D.resultIdx? j (idxT rowv colv) = some (ix2 r c)
      ↔ (Cert.Spec.cl (rowv j)).val = r.val ∧ (Cert.Spec.cl (colv j)).val = c.val := by
  have hr := hrow j
  have hc := hcol j
  have s0 := start_0 rowv colv j hr.1
  have s1 := start_1 rowv colv j hc.1
  have w0 := window_zero j 0
  have w1 := window_zero j 1
  have hb : ∀ a, 0 ≤ D.start j (idxT rowv colv) a + D.window j a
      ∧ D.start j (idxT rowv colv) a + D.window j a < S10112x10112.size a := by
    intro a
    fin_cases a
    · show 0 ≤ D.start j (idxT rowv colv) 0 + ((D.window j 0 : ℕ) : ℤ)
        ∧ D.start j (idxT rowv colv) 0 + ((D.window j 0 : ℕ) : ℤ) < ((10112 : ℕ) : ℤ)
      rw [s0, w0]; omega
    · show 0 ≤ D.start j (idxT rowv colv) 1 + ((D.window j 1 : ℕ) : ℤ)
        ∧ D.start j (idxT rowv colv) 1 + ((D.window j 1 : ℕ) : ℤ) < ((10112 : ℕ) : ℤ)
      rw [s1, w1]; omega
  rw [resultIdx?_eq_some_iff D j _ _ hb, cl_val _ hr, cl_val _ hc]
  constructor
  · intro e
    have e0 : (D.start j (idxT rowv colv) 0 + ((D.window j 0 : ℕ) : ℤ)).toNat = r.val := e 0
    have e1 : (D.start j (idxT rowv colv) 1 + ((D.window j 1 : ℕ) : ℤ)).toNat = c.val := e 1
    rw [s0, w0] at e0
    rw [s1, w1] at e1
    constructor <;> omega
  · rintro ⟨e0, e1⟩ a
    fin_cases a
    · show (D.start j (idxT rowv colv) 0 + ((D.window j 0 : ℕ) : ℤ)).toNat = r.val
      rw [s0, w0]; omega
    · show (D.start j (idxT rowv colv) 1 + ((D.window j 1 : ℕ) : ℤ)).toNat = c.val
      rw [s1, w1]; omega

/-- The arcs, as indices of the arc arrays. -/
def arcEquiv : Fin 650000 ≃ S650000.Idx where
  toFun e := ix1 e
  invFun j := j 0
  left_inv _ := rfl
  right_inv j := (eq_ix1 j).symm

/-- Entry `(r, c)` of the dense matrix is the sum of the weights of the arcs from `r` to `c`. -/
theorem adj_apply (rowv colv : IVec S650000 32) (nrm : FVec Ideal S650000 .f32)
    (hrow : ∀ e, 0 ≤ (rowv e).toInt ∧ (rowv e).toInt < 10000) (hcol : ∀ e, 0 ≤ (colv e).toInt ∧ (colv e).toInt < 10000)
    (r c : Fin 10112) :
    adj rowv colv nrm (ix2 r c)
      = ∑ e ∈ Finset.univ.filter (fun e : Fin 650000 =>
          (Cert.Spec.cl (rowv (ix1 e))).val = r.val ∧ (Cert.Spec.cl (colv (ix1 e))).val = c.val), nrm (ix1 e) := by
  rw [adjAcc_eq]
  have hz : (broadcastInDim S10112x10112 ![] bcast_S_S10112x10112 (constant (F := Ideal) S_ .f32 0x00000000#32)) (ix2 r c)
      = (0 : EReal) := Ideal.ofBits_zero_f32
  rw [hz, zero_add, Finset.filter_congr (fun j _ => resultIdx_iff rowv colv hrow hcol j r c), Finset.sum_filter,
    Finset.sum_filter]
  exact (Equiv.sum_comp arcEquiv (fun j : S650000.Idx =>
    if (Cert.Spec.cl (rowv j)).val = r.val ∧ (Cert.Spec.cl (colv j)).val = c.val then nrm j else 0)).symm

end Cert.AdjRead

end
-- ==== Proof.RefRead.lean ====
/-
  The reference's result is the specification.

  The reference computes each of its two aggregations as: a linear map of the node table (a contraction), a row gather
  of that table at the arcs' column words, a product with the arcs' weights, an accumulating row scatter at the arcs'
  row words into a zero table, and a bias added. Read at one element `(r, j)`:
    * the gather's element `(e, j)` is the table at the row the column word of arc `e` names (read signed, clamped
      into `[0, 9999]`) and column `j`;
    * the scatter's element `(r, j)` is the sum of the update elements `(e, j)` over the arcs `e` whose row word,
      read signed, is `r` (an update element lands on `(r, j)` exactly then) — and a word in `[0, 10000)` is `r`
      exactly when its clamped reading is;
  so one aggregation is `Cert.Spec.layer` (`layer_apply`). The second aggregation builds the arc words and weights
  again by the same operations, so they are the same functions (`row_again`, `col_again`, `nrm_again`).
-/
import proofs.«102903_j56195352101227_1_alg».proof.Proof.Gen.ReferenceIdeal.Read
import proofs.«102903_j56195352101227_1_alg».proof.Proof.Spec
import Idealize.ShloMosaic.Lib.ValueIdx
import Idealize.ShloMosaic.PureOps.Ideal.Laws
import Idealize.ShloMosaic.Lib.Affine

noncomputable section

namespace Cert.RefRead

open Idealize.ShloMosaic ValueIdx
open Cert.ReferenceIdeal Cert.ReferenceIdeal.Read
open scoped BigOperators

/-! ## The arc data: row word, column word and normalised weight of arc `e`, as the reference computes them -/

/-- The row word of arc `e`. -/
def rowW (a1 : (⟨S2x640000, .i32⟩ : BufTy).Contents (Elt Ideal)) (e : Fin 650000) : BitVec 32 :=
  val_main_v6 (F := Ideal) a1 (ix1 e)

/-- The column word of arc `e`. -/
def colW (a1 : (⟨S2x640000, .i32⟩ : BufTy).Contents (Elt Ideal)) (e : Fin 650000) : BitVec 32 :=
  val_main_v7 (F := Ideal) a1 (ix1 e)

/-- The normalised weight of arc `e`. -/
def nrm (a1 : (⟨S2x640000, .i32⟩ : BufTy).Contents (Elt Ideal)) (a2 : (⟨S640000x1, .f32⟩ : BufTy).Contents (Elt Ideal)) (e : Fin 650000) : EReal :=
  val_main_v33 (F := Ideal) a1 a2 (ix1 e)

/-- The row gather of a `10000 x 7` table at a column of start words: element `(e, j)` is the table at the row the
    word `idx (e, 0)` names (read signed, clamped into `[0, 9999]`) and column `j`. -/
theorem gather_rows_apply {α : Type} (x : S10000x7.Idx → α) (idx : IVec S650000x1 32) (e : Fin 650000) (j : Fin 7) :
    Host.gather gather_S10000x7_S650000x1_S650000x7_1_0_n_n_0_1_17 x idx (ix2 e j)
      = x (ix2 (Cert.Spec.cl (idx (ix2 e 0))) j) := by
  unfold Host.gather
  congr 1
  funext a
  refine Fin.ext ?_
  match a with
  | ⟨0, _⟩ =>
    show gather_S10000x7_S650000x1_S650000x7_1_0_n_n_0_1_17.start (ix2 e j) idx 0
        + gather_S10000x7_S650000x1_S650000x7_1_0_n_n_0_1_17.batchCoord (ix2 e j) 0
        + gather_S10000x7_S650000x1_S650000x7_1_0_n_n_0_1_17.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x7_S650000x1_S650000x7_1_0_n_n_0_1_17.startIndexMap from List.mem_singleton.mpr rfl)]
    have hsi : gather_S10000x7_S650000x1_S650000x7_1_0_n_n_0_1_17.siIdx (ix2 e j)
        ⟨List.idxOf (0 : Fin 2) gather_S10000x7_S650000x1_S650000x7_1_0_n_n_0_1_17.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S10000x7_S650000x1_S650000x7_1_0_n_n_0_1_17.start (ix2 e j) idx 1
        + gather_S10000x7_S650000x1_S650000x7_1_0_n_n_0_1_17.batchCoord (ix2 e j) 1
        + gather_S10000x7_S650000x1_S650000x7_1_0_n_n_0_1_17.offCoord (ix2 e j) 1 = _
    rw [GatherDims.batchCoord_eq_zero _ _ _ List.not_mem_nil]
    have hs : gather_S10000x7_S650000x1_S650000x7_1_0_n_n_0_1_17.start (ix2 e j) idx 1 = 0 := by
      unfold GatherDims.start
      rw [dif_neg (show ¬ (1 : Fin 2) ∈ gather_S10000x7_S650000x1_S650000x7_1_0_n_n_0_1_17.startIndexMap by decide)]
    rw [hs]
    simp only [Nat.add_zero, Nat.zero_add]
    unfold GatherDims.offCoord
    rw [dif_pos (show (1 : Fin 2) ∈ gather_S10000x7_S650000x1_S650000x7_1_0_n_n_0_1_17.sKept by decide)]
    rfl

section Scatter

theorem sc_start0 (idx : IVec S650000x1 32) (e : Fin 650000) (j : Fin 7) :
    scatter_S10000x7_S650000x1_S650000x7_1_0_0_1.start (ix2 e j) idx 0 = (idx (ix2 e 0)).toInt := by
  unfold ScatterDims.start
  rw [dif_pos (show (0 : Fin 2) ∈ scatter_S10000x7_S650000x1_S650000x7_1_0_0_1.scatterDimsToOperandDims from List.mem_singleton.mpr rfl)]
  have hsi : scatter_S10000x7_S650000x1_S650000x7_1_0_0_1.siIdx (ix2 e j) ⟨List.idxOf (0 : Fin 2) scatter_S10000x7_S650000x1_S650000x7_1_0_0_1.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem sc_start1 (idx : IVec S650000x1 32) (e : Fin 650000) (j : Fin 7) :
    scatter_S10000x7_S650000x1_S650000x7_1_0_0_1.start (ix2 e j) idx 1 = 0 := by
  unfold ScatterDims.start
  rw [dif_neg (show ¬ (1 : Fin 2) ∈ scatter_S10000x7_S650000x1_S650000x7_1_0_0_1.scatterDimsToOperandDims by decide)]

theorem sc_window0 (e : Fin 650000) (j : Fin 7) : scatter_S10000x7_S650000x1_S650000x7_1_0_0_1.window (ix2 e j) 0 = 0 := by
  unfold ScatterDims.window
  rw [dif_neg (show ¬ (0 : Fin 2) ∈ scatter_S10000x7_S650000x1_S650000x7_1_0_0_1.sKept by decide)]

theorem sc_window1 (e : Fin 650000) (j : Fin 7) : scatter_S10000x7_S650000x1_S650000x7_1_0_0_1.window (ix2 e j) 1 = j.val := by
  unfold ScatterDims.window
  rw [dif_pos (show (1 : Fin 2) ∈ scatter_S10000x7_S650000x1_S650000x7_1_0_0_1.sKept by decide)]
  rfl

/-- An update element `(e, j')` lands on the table element `(r, j)` exactly when the word of arc `e`, read signed,
    is `r`, and the columns agree. -/
theorem sc_resultIdx_iff (idx : IVec S650000x1 32) (e : Fin 650000) (j' : Fin 7) (r : Fin 10000) (j : Fin 7) :
    scatter_S10000x7_S650000x1_S650000x7_1_0_0_1.resultIdx? (ix2 e j') idx = some (ix2 r j) ↔ ((idx (ix2 e 0)).toInt = (r.val : Int) ∧ j' = j) := by
  have s0 := sc_start0 idx e j'
  have s1 := sc_start1 idx e j'
  have w0 := sc_window0 e j'
  have w1 := sc_window1 e j'
  have hr := r.isLt
  have hj := j.isLt
  have hj' := j'.isLt
  unfold ScatterDims.resultIdx?
  split
  · rename_i h
    rw [Option.some.injEq]
    constructor
    · intro hEq
      have h0 := congrArg (fun f => (f 0).val) hEq
      have h1 := congrArg (fun f => (f 1).val) hEq
      have hh := h 0
      simp only [s0, w0, s1, w1] at h0 h1 hh
      change ((idx (ix2 e 0)).toInt + ((0 : Nat) : Int)).toNat = r.val at h0
      change ((0 : Int) + ((j'.val : Nat) : Int)).toNat = j.val at h1
      refine ⟨by omega, Fin.ext (by omega)⟩
    · rintro ⟨h0, h1⟩
      funext a
      refine Fin.ext ?_
      match a with
      | ⟨0, _⟩ =>
        show (scatter_S10000x7_S650000x1_S650000x7_1_0_0_1.start (ix2 e j') idx 0 + ((scatter_S10000x7_S650000x1_S650000x7_1_0_0_1.window (ix2 e j') 0 : Nat) : Int)).toNat = r.val
        rw [s0, w0]; omega
      | ⟨1, _⟩ =>
        show (scatter_S10000x7_S650000x1_S650000x7_1_0_0_1.start (ix2 e j') idx 1 + ((scatter_S10000x7_S650000x1_S650000x7_1_0_0_1.window (ix2 e j') 1 : Nat) : Int)).toNat = j.val
        rw [s1, w1, h1]; omega
  · rename_i h
    constructor
    · intro hh; cases hh
    · rintro ⟨h0, h1⟩
      exfalso; apply h
      intro a
      match a with
      | ⟨0, _⟩ =>
        show 0 ≤ scatter_S10000x7_S650000x1_S650000x7_1_0_0_1.start (ix2 e j') idx 0 + ((scatter_S10000x7_S650000x1_S650000x7_1_0_0_1.window (ix2 e j') 0 : Nat) : Int)
          ∧ scatter_S10000x7_S650000x1_S650000x7_1_0_0_1.start (ix2 e j') idx 0 + ((scatter_S10000x7_S650000x1_S650000x7_1_0_0_1.window (ix2 e j') 0 : Nat) : Int) < ((10000 : Nat) : Int)
        rw [s0, w0]; omega
      | ⟨1, _⟩ =>
        show 0 ≤ scatter_S10000x7_S650000x1_S650000x7_1_0_0_1.start (ix2 e j') idx 1 + ((scatter_S10000x7_S650000x1_S650000x7_1_0_0_1.window (ix2 e j') 1 : Nat) : Int)
          ∧ scatter_S10000x7_S650000x1_S650000x7_1_0_0_1.start (ix2 e j') idx 1 + ((scatter_S10000x7_S650000x1_S650000x7_1_0_0_1.window (ix2 e j') 1 : Nat) : Int) < ((7 : Nat) : Int)
        rw [s1, w1]; omega

/-- The accumulating row scatter into a `10000 x 7` table: element `(r, j)` is the table's own element plus the
    updates `(e, j)` of the arcs `e` whose word, read signed, is `r`. -/
theorem scatter_rows_apply (x : S10000x7.Idx → EReal) (idx : IVec S650000x1 32) (upd : S650000x7.Idx → EReal)
    (r : Fin 10000) (j : Fin 7) :
    Ideal.hostScatterAdd scatter_S10000x7_S650000x1_S650000x7_1_0_0_1 x idx upd (ix2 r j)
      = x (ix2 r j) + ∑ e : Fin 650000, if (idx (ix2 e 0)).toInt = (r.val : Int) then upd (ix2 e j) else 0 := by
  unfold Ideal.hostScatterAdd
  refine congrArg (fun t => x (ix2 r j) + t) ?_
  rw [Finset.sum_filter, sum_idx2]
  refine Finset.sum_congr rfl fun e _ => ?_
  simp only [sc_resultIdx_iff]
  by_cases h : (idx (ix2 e 0)).toInt = (r.val : Int)
  · simp only [h, true_and, if_true, Finset.sum_ite_eq', Finset.mem_univ]
  · simp only [h, false_and, if_false, Finset.sum_const_zero]

end Scatter

/-- A signed word in `[0, 10000)` is the node it names: clamping does nothing to it. -/
theorem cl_eq_iff (w : BitVec 32) (hw : 0 ≤ w.toInt ∧ w.toInt < 10000) (r : Fin 10000) :
    w.toInt = (r.val : Int) ↔ Cert.Spec.cl w = r := by
  have hr := r.isLt
  unfold Cert.Spec.cl
  rw [Fin.ext_iff]
  show w.toInt = (r.val : Int) ↔ min w.toInt.toNat 9999 = r.val
  omega

/-- A word that is not negative is kept by "add 10000 if negative". -/
theorem wrap_nonneg (w u : BitVec 32) (hw : 0 ≤ w.toInt) :
    Scalar.select (IntOp.cmpi .slt w 0#32) u w = w := by
  unfold Scalar.select
  rw [if_neg]
  intro hc
  have h1 : w.toInt < (0#32 : BitVec 32).toInt := IntOp.cmpi_slt.mp hc
  have h0 : (0#32 : BitVec 32).toInt = 0 := by decide
  omega

/-- ONE AGGREGATION of the reference, over any operands that read as the arc data: a zero table, the row words as a
    column, the column words (after "add 10000 if negative") as a column, the weights spread along the 7 features, a
    node table `h` and a bias spread along the nodes. -/
theorem layer_apply
    (z : FVec Ideal S10000x7 .f32) (ri ci : IVec S650000x1 32) (nr : FVec Ideal S650000x7 .f32)
    (h b : FVec Ideal S10000x7 .f32)
    (rowW colW : Fin 650000 → BitVec 32) (nrm : Fin 650000 → EReal) (bb : Fin 7 → EReal)
    (hz : ∀ i, z i = 0)
    (hri : ∀ e, ri (ix2 e 0) = rowW e) (hci : ∀ e, ci (ix2 e 0) = colW e)
    (hnr : ∀ e j, nr (ix2 e j) = nrm e) (hb : ∀ r j, b (ix2 r j) = bb j)
    (hrow : ∀ e, 0 ≤ (rowW e).toInt ∧ (rowW e).toInt < 10000)
    (r : Fin 10000) (j : Fin 7) :
    addf (Host.scatterAdd scatter_S10000x7_S650000x1_S650000x7_1_0_0_1 z ri (mulf nr (Host.gather gather_S10000x7_S650000x1_S650000x7_1_0_n_n_0_1_17 h ci))) b (ix2 r j)
      = Cert.Spec.layer rowW colW nrm (fun c j => h (ix2 c j)) bb r j := by
  show Ideal.hostScatterAdd scatter_S10000x7_S650000x1_S650000x7_1_0_0_1 z ri (mulf nr (Host.gather gather_S10000x7_S650000x1_S650000x7_1_0_n_n_0_1_17 h ci)) (ix2 r j) + b (ix2 r j) = _
  rw [scatter_rows_apply, hz, zero_add, hb]
  unfold Cert.Spec.layer
  refine congrArg (fun t => t + bb j) ?_
  rw [Finset.sum_filter]
  refine Finset.sum_congr rfl fun e _ => ?_
  rw [hri]
  have hc := cl_eq_iff (rowW e) (hrow e) r
  by_cases hh : Cert.Spec.cl (rowW e) = r
  · rw [if_pos hh, if_pos (hc.mpr hh)]
    show nr (ix2 e j) * Host.gather gather_S10000x7_S650000x1_S650000x7_1_0_n_n_0_1_17 h ci (ix2 e j) = _
    rw [hnr, gather_rows_apply, hci]
  · rw [if_neg hh, if_neg (fun h' => hh (hc.mp h'))]

/-! ## The first aggregation -/

theorem zero45 (i : S10000x7.Idx) : val_main_v45 (F := Ideal) i = 0 := by
  rw [val_main_v45_apply, val_main_cst_9_apply]
  exact Ideal.ofBits_zero_f32

theorem row46 (a1 : (⟨S2x640000, .i32⟩ : BufTy).Contents (Elt Ideal)) (e : Fin 650000) : val_main_v46 (F := Ideal) a1 (ix2 e 0) = rowW a1 e := by
  rw [val_main_v46_apply]
  unfold rowW
  refine congrArg _ ?_
  funext a; match a with | ⟨0, _⟩ => rfl

theorem col41 (a1 : (⟨S2x640000, .i32⟩ : BufTy).Contents (Elt Ideal)) (hcol : ∀ e, 0 ≤ (colW a1 e).toInt ∧ (colW a1 e).toInt < 10000) (e : Fin 650000) :
    val_main_v41 (F := Ideal) a1 (ix2 e 0) = colW a1 e := by
  have hi : idx_main_v41 (ix2 e (0 : Fin 1)) = ix1 e := by funext a; match a with | ⟨0, _⟩ => rfl
  rw [val_main_v41_apply, hi, val_main_v40_apply, val_main_v37_apply, val_main_v36_apply, val_main_c_7_apply]
  exact wrap_nonneg _ _ (hcol e).1

theorem nrm43 (a1 : (⟨S2x640000, .i32⟩ : BufTy).Contents (Elt Ideal)) (a2 : (⟨S640000x1, .f32⟩ : BufTy).Contents (Elt Ideal)) (e : Fin 650000) (j : Fin 7) :
    val_main_v43 (F := Ideal) a1 a2 (ix2 e j) = nrm a1 a2 e := by
  rw [val_main_v43_apply, val_main_v35_apply]
  unfold nrm
  refine congrArg _ ?_
  funext a; match a with | ⟨0, _⟩ => rfl

theorem bias49 (a5 : (⟨S7, .f32⟩ : BufTy).Contents (Elt Ideal)) (r : Fin 10000) (j : Fin 7) : val_main_v49 (F := Ideal) a5 (ix2 r j) = a5 (ix1 j) := by
  rw [val_main_v49_apply, val_main_v48_apply]
  refine congrArg _ ?_
  funext a; match a with | ⟨0, _⟩ => rfl

theorem lin34 (a0 : (⟨S10000x512, .f32⟩ : BufTy).Contents (Elt Ideal)) (a4 : (⟨S512x7, .f32⟩ : BufTy).Contents (Elt Ideal)) (c : Fin 10000) (j : Fin 7) :
    val_main_v34 (F := Ideal) a0 a4 (ix2 c j)
      = Cert.Spec.lin (fun c k => a0 (ix2 c k)) (fun k j => a4 (ix2 k j)) c j := by
  rw [val_main_v34_apply]
  unfold Cert.Spec.lin
  refine Finset.sum_congr rfl fun k _ => ?_
  have hl : lidx_main_v34 (ix2 c j) k = ix2 c k := by
    funext a; match a with | ⟨0, _⟩ => rfl | ⟨1, _⟩ => rfl
  have hr : ridx_main_v34 (ix2 c j) k = ix2 k j := by
    funext a; match a with | ⟨0, _⟩ => rfl | ⟨1, _⟩ => rfl
  rw [hl, hr]

/-- The reference's first layer is the specification's. -/
theorem layer1 (a0 : (⟨S10000x512, .f32⟩ : BufTy).Contents (Elt Ideal)) (a1 : (⟨S2x640000, .i32⟩ : BufTy).Contents (Elt Ideal)) (a2 : (⟨S640000x1, .f32⟩ : BufTy).Contents (Elt Ideal)) (a4 : (⟨S512x7, .f32⟩ : BufTy).Contents (Elt Ideal)) (a5 : (⟨S7, .f32⟩ : BufTy).Contents (Elt Ideal))
    (hrow : ∀ e, 0 ≤ (rowW a1 e).toInt ∧ (rowW a1 e).toInt < 10000)
    (hcol : ∀ e, 0 ≤ (colW a1 e).toInt ∧ (colW a1 e).toInt < 10000) (r : Fin 10000) (j : Fin 7) :
    val_main_v50 (F := Ideal) a0 a1 a2 a4 a5 (ix2 r j)
      = Cert.Spec.layer (rowW a1) (colW a1) (nrm a1 a2)
          (Cert.Spec.lin (fun c k => a0 (ix2 c k)) (fun k j => a4 (ix2 k j))) (fun j => a5 (ix1 j)) r j := by
  have key := layer_apply (val_main_v45 (F := Ideal)) (val_main_v46 (F := Ideal) a1) (val_main_v41 (F := Ideal) a1)
    (val_main_v43 (F := Ideal) a1 a2) (val_main_v34 (F := Ideal) a0 a4) (val_main_v49 (F := Ideal) a5)
    (rowW a1) (colW a1) (nrm a1 a2) (fun j => a5 (ix1 j))
    zero45 (row46 a1) (col41 a1 hcol) (nrm43 a1 a2) (bias49 a5) hrow r j
  have hl : (fun c j => val_main_v34 (F := Ideal) a0 a4 (ix2 c j))
      = Cert.Spec.lin (fun c k => a0 (ix2 c k)) (fun k j => a4 (ix2 k j)) := by
    funext c j; exact lin34 a0 a4 c j
  rw [hl] at key
  exact key

/-! ## The second aggregation: the reference builds the arc data a second time, the same way -/

theorem row_again (a1 : (⟨S2x640000, .i32⟩ : BufTy).Contents (Elt Ideal)) : val_main_v52 (F := Ideal) a1 = val_main_v6 (F := Ideal) a1 := rfl
theorem col_again (a1 : (⟨S2x640000, .i32⟩ : BufTy).Contents (Elt Ideal)) : val_main_v53 (F := Ideal) a1 = val_main_v7 (F := Ideal) a1 := rfl
theorem nrm_again (a1 : (⟨S2x640000, .i32⟩ : BufTy).Contents (Elt Ideal)) (a2 : (⟨S640000x1, .f32⟩ : BufTy).Contents (Elt Ideal)) : val_main_v79 (F := Ideal) a1 a2 = val_main_v33 (F := Ideal) a1 a2 := rfl

theorem zero91 (i : S10000x7.Idx) : val_main_v91 (F := Ideal) i = 0 := by
  rw [val_main_v91_apply, val_main_cst_21_apply]
  exact Ideal.ofBits_zero_f32

theorem row92 (a1 : (⟨S2x640000, .i32⟩ : BufTy).Contents (Elt Ideal)) (e : Fin 650000) : val_main_v92 (F := Ideal) a1 (ix2 e 0) = rowW a1 e := by
  rw [val_main_v92_apply, row_again]
  unfold rowW
  refine congrArg _ ?_
  funext a; match a with | ⟨0, _⟩ => rfl

theorem col87 (a1 : (⟨S2x640000, .i32⟩ : BufTy).Contents (Elt Ideal)) (hcol : ∀ e, 0 ≤ (colW a1 e).toInt ∧ (colW a1 e).toInt < 10000) (e : Fin 650000) :
    val_main_v87 (F := Ideal) a1 (ix2 e 0) = colW a1 e := by
  have hi : idx_main_v87 (ix2 e (0 : Fin 1)) = ix1 e := by funext a; match a with | ⟨0, _⟩ => rfl
  rw [val_main_v87_apply, hi, val_main_v86_apply, val_main_v83_apply, val_main_v82_apply, val_main_c_19_apply, col_again]
  exact wrap_nonneg _ _ (hcol e).1

theorem nrm89 (a1 : (⟨S2x640000, .i32⟩ : BufTy).Contents (Elt Ideal)) (a2 : (⟨S640000x1, .f32⟩ : BufTy).Contents (Elt Ideal)) (e : Fin 650000) (j : Fin 7) :
    val_main_v89 (F := Ideal) a1 a2 (ix2 e j) = nrm a1 a2 e := by
  rw [val_main_v89_apply, val_main_v81_apply, nrm_again]
  unfold nrm
  refine congrArg _ ?_
  funext a; match a with | ⟨0, _⟩ => rfl

theorem bias95 (a7 : (⟨S7, .f32⟩ : BufTy).Contents (Elt Ideal)) (r : Fin 10000) (j : Fin 7) : val_main_v95 (F := Ideal) a7 (ix2 r j) = a7 (ix1 j) := by
  rw [val_main_v95_apply, val_main_v94_apply]
  refine congrArg _ ?_
  funext a; match a with | ⟨0, _⟩ => rfl

theorem lin80 (a0 : (⟨S10000x512, .f32⟩ : BufTy).Contents (Elt Ideal)) (a1 : (⟨S2x640000, .i32⟩ : BufTy).Contents (Elt Ideal)) (a2 : (⟨S640000x1, .f32⟩ : BufTy).Contents (Elt Ideal)) (a4 : (⟨S512x7, .f32⟩ : BufTy).Contents (Elt Ideal)) (a5 : (⟨S7, .f32⟩ : BufTy).Contents (Elt Ideal)) (a6 : (⟨S7x7, .f32⟩ : BufTy).Contents (Elt Ideal)) (c : Fin 10000) (j : Fin 7) :
    val_main_v80 (F := Ideal) a0 a1 a2 a4 a5 a6 (ix2 c j)
      = Cert.Spec.lin (fun c k => val_main_v50 (F := Ideal) a0 a1 a2 a4 a5 (ix2 c k)) (fun k j => a6 (ix2 k j)) c j := by
  rw [val_main_v80_apply]
  unfold Cert.Spec.lin
  refine Finset.sum_congr rfl fun k _ => ?_
  have hl : lidx_main_v80 (ix2 c j) k = ix2 c k := by
    funext a; match a with | ⟨0, _⟩ => rfl | ⟨1, _⟩ => rfl
  have hr : ridx_main_v80 (ix2 c j) k = ix2 k j := by
    funext a; match a with | ⟨0, _⟩ => rfl | ⟨1, _⟩ => rfl
  rw [hl, hr]

/-- THE REFERENCE'S RESULT IS THE SPECIFICATION, for arc words in range. -/
theorem ref_is_spec (a0 : (⟨S10000x512, .f32⟩ : BufTy).Contents (Elt Ideal)) (a1 : (⟨S2x640000, .i32⟩ : BufTy).Contents (Elt Ideal)) (a2 : (⟨S640000x1, .f32⟩ : BufTy).Contents (Elt Ideal)) (a4 : (⟨S512x7, .f32⟩ : BufTy).Contents (Elt Ideal)) (a5 : (⟨S7, .f32⟩ : BufTy).Contents (Elt Ideal)) (a6 : (⟨S7x7, .f32⟩ : BufTy).Contents (Elt Ideal)) (a7 : (⟨S7, .f32⟩ : BufTy).Contents (Elt Ideal))
    (hrow : ∀ e, 0 ≤ (rowW a1 e).toInt ∧ (rowW a1 e).toInt < 10000)
    (hcol : ∀ e, 0 ≤ (colW a1 e).toInt ∧ (colW a1 e).toInt < 10000) (r : Fin 10000) (j : Fin 7) :
    val_main_v96 (F := Ideal) a0 a1 a2 a4 a5 a6 a7 (ix2 r j)
      = Cert.Spec.out (rowW a1) (colW a1) (nrm a1 a2) (fun c k => a0 (ix2 c k)) (fun k j => a4 (ix2 k j))
          (fun j => a5 (ix1 j)) (fun k j => a6 (ix2 k j)) (fun j => a7 (ix1 j)) r j := by
  have key := layer_apply (val_main_v91 (F := Ideal)) (val_main_v92 (F := Ideal) a1) (val_main_v87 (F := Ideal) a1)
    (val_main_v89 (F := Ideal) a1 a2) (val_main_v80 (F := Ideal) a0 a1 a2 a4 a5 a6) (val_main_v95 (F := Ideal) a7)
    (rowW a1) (colW a1) (nrm a1 a2) (fun j => a7 (ix1 j))
    zero91 (row92 a1) (col87 a1 hcol) (nrm89 a1 a2) (bias95 a7) hrow r j
  have hl : (fun c j => val_main_v80 (F := Ideal) a0 a1 a2 a4 a5 a6 (ix2 c j))
      = Cert.Spec.lin (Cert.Spec.layer (rowW a1) (colW a1) (nrm a1 a2)
          (Cert.Spec.lin (fun c k => a0 (ix2 c k)) (fun k j => a4 (ix2 k j))) (fun j => a5 (ix1 j)))
          (fun k j => a6 (ix2 k j)) := by
    funext c j
    rw [lin80]
    refine congrArg (fun f => Cert.Spec.lin f (fun k j => a6 (ix2 k j)) c j) ?_
    funext c' k
    exact layer1 a0 a1 a2 a4 a5 hrow hcol c' k
  rw [hl] at key
  unfold Cert.Spec.out
  exact key

end Cert.RefRead

end
-- ==== Proof.NormFacts.lean ====
/-
  Facts about the arc list and the normalised weights of the reference program, read off its operations one at a time.

  The arc words: the first 640000 row (column) words are the given ones, the last 10000 are the node numbers
  0 .. 9999, so every one of them is a node number once the given ones are.
  The normalised weight of an arc is a product of three factors, each a real number: the arc's weight (a given real or
  the constant one), and the inverse square root of the degree (a finite sum of arc weights) at the arc's two ends,
  zero where the degree is not positive.
-/
import proofs.«102903_j56195352101227_1_alg».proof.Proof.Gen.ReferenceIdeal.Read
import Idealize.ShloMosaic.Lib.IdealHost

noncomputable section

namespace Cert.NormFacts

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx
open scoped BigOperators

/-! ## Real numbers among the extended reals -/

theorem real_mul {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

theorem real_add {x y : EReal} (hx : ∃ a : ℝ, x = (a : EReal)) (hy : ∃ b : ℝ, y = (b : EReal)) :
    ∃ c : ℝ, x + y = (c : EReal) := by
  obtain ⟨a, rfl⟩ := hx
  obtain ⟨b, rfl⟩ := hy
  exact ⟨a + b, (EReal.coe_add a b).symm⟩

theorem real_sum {ι : Type} (s : Finset ι) (f : ι → EReal) (hf : ∀ i ∈ s, ∃ a : ℝ, f i = (a : EReal)) :
    ∃ c : ℝ, ∑ i ∈ s, f i = (c : EReal) := by
  classical
  induction s using Finset.induction_on with
  | empty => exact ⟨0, by simp⟩
  | insert i s hi ih =>
    rw [Finset.sum_insert hi]
    exact real_add (hf i (Finset.mem_insert_self i s)) (ih fun j hj => hf j (Finset.mem_insert_of_mem hj))

/-! ## A word that is a small natural number -/

theorem toInt_ofNat_small (n : ℕ) (h : n < 10000) :
    0 ≤ (BitVec.ofNat 32 n).toInt ∧ (BitVec.ofNat 32 n).toInt < 10000 := by
  have e : (BitVec.ofNat 32 n).toNat = n := by rw [BitVec.toNat_ofNat]; omega
  rw [BitVec.toInt_eq_toNat_of_lt (by rw [e]; omega), e]
  omega

/-! ## The joined arrays at an index: the first 640000 places hold the first piece, the last 10000 the second -/

theorem cat_left {α : Type} (x₁ : S640000.Idx → α) (x₂ : S10000.Idx → α) (e : S650000.Idx) (hc : (e 0).val < 640000) :
    concatenate S650000 0 [⟨S640000, x₁⟩, ⟨S10000, x₂⟩] concatenates_S640000_S10000_S650000_d0 e
      = x₁ (ix1 ⟨(e 0).val, hc⟩) :=
  concatenate_pair_apply_left (t := S650000) (s₁ := S640000) (s₂ := S10000) 0 x₁ x₂
    concatenates_S640000_S10000_S650000_d0 e rfl (ix1 ⟨(e 0).val, hc⟩) (fun b => by match b with | ⟨0, _⟩ => rfl)

theorem cat_right {α : Type} (x₁ : S640000.Idx → α) (x₂ : S10000.Idx → α) (e : S650000.Idx) (hc : 640000 ≤ (e 0).val) :
    concatenate S650000 0 [⟨S640000, x₁⟩, ⟨S10000, x₂⟩] concatenates_S640000_S10000_S650000_d0 e
      = x₂ (ix1 ⟨(e 0).val - 640000, by have hlt : (e 0).val < 650000 := (e 0).isLt; omega⟩) :=
  concatenate_pair_apply_right (t := S650000) (s₁ := S640000) (s₂ := S10000) 0 x₁ x₂
    concatenates_S640000_S10000_S650000_d0 e rfl rfl _ (fun b hb => absurd (Subsingleton.elim _ _) hb)
    (by show (e 0).val - 640000 + 640000 = (e 0).val; omega)

/-! ## The arc words are node numbers -/

section
variable (a1 : (⟨S2x640000, .i32⟩ : BufTy).Contents (Elt Ideal)) (a2 : (⟨S640000x1, .f32⟩ : BufTy).Contents (Elt Ideal))

theorem rowW_range (h1 : ∀ p, 0 ≤ (a1 p).toInt ∧ (a1 p).toInt < 10000) (e : S650000.Idx) :
    0 ≤ (val_main_v6 (F := Ideal) a1 e).toInt ∧ (val_main_v6 (F := Ideal) a1 e).toInt < 10000 := by
  have hlt : (e 0).val < 650000 := (e 0).isLt
  unfold val_main_v6
  by_cases hc : (e 0).val < 640000
  · rw [cat_left _ _ e hc, val_main_v1_apply, val_main_v0_apply]
    exact h1 _
  · rw [cat_right _ _ e (by omega), val_main_v5_apply]
    exact toInt_ofNat_small _ (by show (e 0).val - 640000 < 10000; omega)

theorem colW_range (h1 : ∀ p, 0 ≤ (a1 p).toInt ∧ (a1 p).toInt < 10000) (e : S650000.Idx) :
    0 ≤ (val_main_v7 (F := Ideal) a1 e).toInt ∧ (val_main_v7 (F := Ideal) a1 e).toInt < 10000 := by
  have hlt : (e 0).val < 650000 := (e 0).isLt
  unfold val_main_v7
  by_cases hc : (e 0).val < 640000
  · rw [cat_left _ _ e hc, val_main_v3_apply, val_main_v2_apply]
    exact h1 _
  · rw [cat_right _ _ e (by omega), val_main_v5_apply]
    exact toInt_ofNat_small _ (by show (e 0).val - 640000 < 10000; omega)

/-! ## The normalised weights are real numbers -/

/-- The pattern of minus one half. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- An arc's weight: a given one, or the constant one. -/
theorem ew_real (h2 : ∀ i, ∃ a : ℝ, a2 i = (a : EReal)) (e : S650000.Idx) :
    ∃ a : ℝ, val_main_v9 (F := Ideal) a2 e = (a : EReal) := by
  have hlt : (e 0).val < 650000 := (e 0).isLt
  unfold val_main_v9
  by_cases hc : (e 0).val < 640000
  · rw [cat_left _ _ e hc, val_main_v4_apply]
    exact h2 _
  · rw [cat_right _ _ e (by omega), val_main_v8_apply, val_main_cst_apply, Ideal.ofBits_def, Ideal.ofBits_one_f32]
    exact ⟨1, EReal.coe_one.symm⟩

/-- A node's degree: a finite sum of arc weights. -/
theorem deg_real (h2 : ∀ i, ∃ a : ℝ, a2 i = (a : EReal)) (i : S10000.Idx) :
    ∃ a : ℝ, val_main_v12 (F := Ideal) a1 a2 i = (a : EReal) := by
  unfold val_main_v12 Host.scatterAdd
  rw [Ideal.hostScatterAdd_def]
  unfold Ideal.hostScatterAdd
  refine real_add ?_ (real_sum _ _ fun j _ => ew_real a2 h2 j)
  rw [val_main_v10_apply, val_main_cst_0_apply, Ideal.ofBits_def, Ideal.ofBits_zero_f32]
  exact ⟨0, EReal.coe_zero.symm⟩

/-- A node's inverse square root of the degree, zero where the degree is not positive. -/
theorem dinv_real (h2 : ∀ i, ∃ a : ℝ, a2 i = (a : EReal)) (i : S10000.Idx) :
    ∃ a : ℝ, val_main_v17 (F := Ideal) a1 a2 i = (a : EReal) := by
  rw [val_main_v17_apply]
  unfold Scalar.select
  split
  · obtain ⟨d, hd⟩ := deg_real a1 a2 h2 i
    rw [val_main_v16_apply, Ideal.hostPowf_def, hd, val_main_v15_apply, val_main_cst_2_apply, Ideal.ofBits_def,
      ofBits_neg_half_f32, Ideal.pow_coe_coe]
    exact ⟨_, rfl⟩
  · rw [val_main_call0_v1_apply, val_main_call0_v0_apply, val_main_cst_3_apply, Ideal.ofBits_def, Ideal.ofBits_zero_f32]
    exact ⟨0, EReal.coe_zero.symm⟩

/-- An arc's normalised weight: the inverse square root of the degree at its row, times its weight, times the inverse
    square root of the degree at its column. -/
theorem nrm_real (h2 : ∀ i, ∃ a : ℝ, a2 i = (a : EReal)) (e : S650000.Idx) :
    ∃ a : ℝ, val_main_v33 (F := Ideal) a1 a2 e = (a : EReal) := by
  rw [val_main_v33_apply, val_main_v25_apply, Ideal.mulf_def, Ideal.mulf_def]
  refine real_mul (real_mul ?_ (ew_real a2 h2 e)) ?_
  · unfold val_main_v24 Host.gather
    exact dinv_real a1 a2 h2 _
  · unfold val_main_v32 Host.gather
    exact dinv_real a1 a2 h2 _

end

end Cert.NormFacts

end
-- ==== Proof.InputFacts.lean ====
/-
  What the precondition says about the inputs.

  The precondition is a conjunction of "all" reductions: for each float input, that the absolute value of
  every entry is below plus infinity, and for the arc table, that every word, read signed, lies in
  `[0, 10000)`.  Over the extended reals an entry whose absolute value is below plus infinity is neither
  infinity, hence is (the coercion of) a real number.
-/
import proofs.«102903_j56195352101227_1_alg».proof.Defs
import Idealize.ShloMosaic.Lib.ReduceAll

noncomputable section

namespace Cert.InputFacts

open Idealize.ShloMosaic Cert.Pre_finite_inputs

/-- An array of rank zero has one index. -/
instance : Subsingleton S_.Idx := ⟨fun a b => funext fun d => d.elim0⟩

/-- The index of an array of rank zero. -/
def i0 : S_.Idx := fun a => a.elim0

/-- The pattern with all exponent bits set and no fraction bit denotes plus infinity. -/
theorem top_eq : Ideal.ofBits .f32 0x7F800000#32 = (⊤ : EReal) := by
  simp [Ideal.ofBits, Ideal.ieee]

theorem toInt_zero : (0#32 : BitVec 32).toInt = 0 := by decide
theorem toInt_tenThousand : (10000#32 : BitVec 32).toInt = 10000 := by decide

/-- An extended real with `max x (-x) < +∞` is neither infinity: it is a real number. -/
theorem elt_real (x : EReal) (h : Ideal.cmp .olt (max x (-x)) (Ideal.ofBits .f32 0x7F800000#32) = 1#1) :
    ∃ a : ℝ, x = a := by
  rw [top_eq] at h
  induction x using EReal.rec with
  | bot => simp [Ideal.cmp] at h
  | coe a => exact ⟨a, rfl⟩
  | top => simp [Ideal.cmp] at h

/-- "All entries have absolute value below plus infinity" gives: every entry is real. -/
theorem all_real {s : Shape} (x : FVec Ideal s .f32) (hb : S_.BroadcastsInDim s (![] : Fin 0 → Fin s.rank))
    {axes : List (Fin s.rank)} (hr : s.ReducesTo axes S_) (hu : 0 < S_.numel)
    (e : Host.reduce IntOp.andi
        (cmpf (F := Ideal) .olt (Host.absf (F := Ideal) x)
          (broadcastInDim s ![] hb (constant (F := Ideal) S_ .f32 0x7F800000#32)))
        (constantI S_ 1 1#1) hr hu i0 = 1#1) (i : s.Idx) : ∃ a : ℝ, x i = (a : EReal) :=
  elt_real (x i) (Host.reduce_andi_all _ _ hr hu i0 e i)

/-- "All words are at least 0 and below 10000, signed" gives the two bounds at every index. -/
theorem all_range {s : Shape} (x : IVec s 32) (hb : S_.BroadcastsInDim s (![] : Fin 0 → Fin s.rank))
    {axes : List (Fin s.rank)} (hr : s.ReducesTo axes S_) (hu : 0 < S_.numel)
    (e : Host.reduce IntOp.andi
        (andi (cmpi .sge x (broadcastInDim s ![] hb (constantI S_ 32 0#32)))
          (cmpi .slt x (broadcastInDim s ![] hb (constantI S_ 32 10000#32))))
        (constantI S_ 1 1#1) hr hu i0 = 1#1) (p : s.Idx) : 0 ≤ (x p).toInt ∧ (x p).toInt < 10000 := by
  have h := Host.reduce_andi_all _ _ hr hu i0 e p
  obtain ⟨h0, h1⟩ := IntOp.andi_eq_one.1 h
  have h0' : (0#32 : BitVec 32).toInt ≤ (x p).toInt := IntOp.cmpi_sge.1 h0
  have h1' : (x p).toInt < (10000#32 : BitVec 32).toInt := IntOp.cmpi_slt.1 h1
  rw [toInt_zero] at h0'
  rw [toInt_tenThousand] at h1'
  exact ⟨h0', h1'⟩

/-- The precondition decoded: every float input that the network reads is real everywhere, and every
    arc word lies in `[0, 10000)` read signed. -/
theorem of_pre [Cert.Pre_finite_inputs.Facts]
    (a0 : FVec Ideal S10000x512 .f32) (a1 : IVec S2x640000 32) (a2 : FVec Ideal S640000x1 .f32)
    (a3 : FVec Ideal S10000x10000 .f32) (a4 : FVec Ideal S512x7 .f32) (a5 : FVec Ideal S7 .f32)
    (a6 : FVec Ideal S7x7 .f32) (a7 : FVec Ideal S7 .f32)
    (h : Cert.Pre_finite_inputs.fn (F := Ideal) a0 a1 a2 a3 a4 a5 a6 a7 = fun _ => 1#1) :
    (∀ i, ∃ a : ℝ, a0 i = (a : EReal)) ∧ (∀ p, 0 ≤ (a1 p).toInt ∧ (a1 p).toInt < 10000)
      ∧ (∀ i, ∃ a : ℝ, a2 i = (a : EReal)) ∧ (∀ i, ∃ a : ℝ, a4 i = (a : EReal))
      ∧ (∀ i, ∃ a : ℝ, a5 i = (a : EReal)) ∧ (∀ i, ∃ a : ℝ, a6 i = (a : EReal))
      ∧ (∀ i, ∃ a : ℝ, a7 i = (a : EReal)) := by
  have e := congrFun h i0
  dsimp only [Cert.Pre_finite_inputs.fn, Cert.Pre_finite_inputs.fn_part1, Cert.Pre_finite_inputs.fn_part2] at e
  obtain ⟨e, e1⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, -⟩ := IntOp.andi_eq_one.1 e
  obtain ⟨e0, e2⟩ := IntOp.andi_eq_one.1 e
  exact ⟨all_real a0 _ _ _ e0, all_range a1 _ _ _ e1, all_real a2 _ _ _ e2, all_real a4 _ _ _ e4,
    all_real a5 _ _ _ e5, all_real a6 _ _ _ e6, all_real a7 _ _ _ e7⟩

end Cert.InputFacts

end
-- ==== Proof.Bridge.lean ====
/-
  The two programs compute one function.  Under the precondition (finite float inputs, node numbers in [0, 10000))
  the kernel program's first result, read entry by entry, is the two-layer network of Spec.lean — the dense arc matrix
  against a padded node table is the sum over the arcs leaving a row —, and so is the reference's; the second result is
  the zero constant on both sides.
-/
import proofs.«102903_j56195352101227_1_alg».proof.Defs
import proofs.«102903_j56195352101227_1_alg».proof.Proof.Gen.Pre_finite_inputs
import proofs.«102903_j56195352101227_1_alg».proof.Proof.KRun
import proofs.«102903_j56195352101227_1_alg».proof.Proof.KChain
import proofs.«102903_j56195352101227_1_alg».proof.Proof.KFoldAdj
import proofs.«102903_j56195352101227_1_alg».proof.Proof.KFoldKeep
import proofs.«102903_j56195352101227_1_alg».proof.Proof.KValue
import proofs.«102903_j56195352101227_1_alg».proof.Proof.AdjRead
import proofs.«102903_j56195352101227_1_alg».proof.Proof.RefRead
import proofs.«102903_j56195352101227_1_alg».proof.Proof.NormFacts
import proofs.«102903_j56195352101227_1_alg».proof.Proof.InputFacts
import proofs.«102903_j56195352101227_1_alg».proof.Proof.Gen.ReferenceIdeal.Run
import proofs.«102903_j56195352101227_1_alg».proof.Proof.Gen.ReferenceIdeal.Read

set_option maxRecDepth 16384

noncomputable section

namespace Cert.Bridge

open Idealize.ShloMosaic Idealize.ShloMosaic.TcCoe Idealize.SL.Sem Idealize.ShloMosaic.ValueIdx
open Cert.KernelIdeal.Gen Cert.KernelIdeal.Terms

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The kernel program's first result is the reference's term of the same argument arrays. -/
theorem first_result
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) :
    W18 (F := Ideal) m ρ c (Proc.devRef .tc Cert.KernelIdeal.main_v65)
      = Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨h0, h1, h2, h4, h5, h6, h7⟩ := Cert.InputFacts.of_pre _ _ _ _ _ _ _ _ hpre
  have hrow := fun e => Cert.NormFacts.rowW_range (m ((c.tc : Thread Cert.KernelIdeal.nD Cert.KernelIdeal.τ).loc Cert.KernelIdeal.main_arg1)) h1 e
  have hcol := fun e => Cert.NormFacts.colW_range (m ((c.tc : Thread Cert.KernelIdeal.nD Cert.KernelIdeal.τ).loc Cert.KernelIdeal.main_arg1)) h1 e
  have hn := fun e => Cert.NormFacts.nrm_real (m ((c.tc : Thread Cert.KernelIdeal.nD Cert.KernelIdeal.τ).loc Cert.KernelIdeal.main_arg1)) (m ((c.tc : Thread Cert.KernelIdeal.nD Cert.KernelIdeal.τ).loc Cert.KernelIdeal.main_arg2)) h2 e
  funext i
  obtain ⟨r, j, rfl⟩ : ∃ (r : Fin 10000) (j : Fin 7), i = ix2 r j := ⟨i 0, i 1, eq_ix2 i⟩
  refine Eq.trans ?_ (Cert.RefRead.ref_is_spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (fun e => hrow (ix1 e)) (fun e => hcol (ix1 e)) r j).symm
  rw [Cert.KernelIdeal.Chain.v65_eq, Cert.KernelIdeal.Chain.v61_eq, Cert.KernelIdeal.Chain.v49_16, Cert.KernelIdeal.Chain.v60_eq, Cert.KernelIdeal.Chain.v59_eq, Cert.KernelIdeal.Chain.v53_15,
    Cert.KernelIdeal.Chain.v56_eq, Cert.KernelIdeal.Chain.v52_14, Cert.KernelIdeal.Chain.v49_13, Cert.KernelIdeal.Chain.v55_eq, Cert.KernelIdeal.Chain.v54_17,
    Cert.KernelIdeal.Fold.xpad_eq, Cert.KernelIdeal.Fold.w1pad_eq, Cert.KernelIdeal.Fold.b1pad_eq, Cert.KernelIdeal.Fold.w2pad_eq, Cert.KernelIdeal.Fold.b2pad_eq,
    Cert.KernelIdeal.FoldKeep.adj_kept, Cert.KernelIdeal.FoldAdj.adj_3]
  exact Cert.KValue.kernel_value (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (Cert.RefRead.rowW (m ((c.tc : Thread Cert.KernelIdeal.nD Cert.KernelIdeal.τ).loc Cert.KernelIdeal.main_arg1))) (Cert.RefRead.colW (m ((c.tc : Thread Cert.KernelIdeal.nD Cert.KernelIdeal.τ).loc Cert.KernelIdeal.main_arg1))) (Cert.RefRead.nrm (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    _ (fun r c => Cert.AdjRead.adj_apply _ _ _ hrow hcol r c) (fun e => hn (ix1 e)) h0 h4 h5 h6 h7 r j

/-- Run from memories that agree on the arguments, the two programs end with equal results. -/
theorem algebraic : Cert.algebraic_KernelIdeal_ReferenceIdeal := by
  intro m ρ m' ρ' hpre hagree
  refine ⟨fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => broadcastInDim Cert.KernelIdeal.S1 ![] Cert.KernelIdeal.Gen.bcast_S_S1 (constant (F := Ideal) Cert.KernelIdeal.S_ .f32 0x00000000#32), ?_, ?_⟩
  · refine (θ_run Cert.KernelIdeal.defs _ _).mono (fun r h c => ?_) (Cert.KernelIdeal.Named.run_named (F := Ideal) m ρ)
    obtain ⟨h65, h66, hargs⟩ := h c
    exact ⟨h65.trans (first_result m ρ c (hpre c)), h66.trans (Cert.KernelIdeal.Chain.v66_eq m ρ c), hargs⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v96_eq, (hagree c).1, (hagree c).2.1, (hagree c).2.2.1, (hagree c).2.2.2.2.1,
        (hagree c).2.2.2.2.2.1, (hagree c).2.2.2.2.2.2.1, (hagree c).2.2.2.2.2.2.2]
    · rfl

end Cert.Bridge

end
-- ==== Proof.lean ====
/-
  A two-layer graph convolution over 10000 nodes and 640000 weighted arcs (plus one loop per node): each layer
  maps the node features linearly and then replaces row r by the sum, over the arcs leaving r, of the arc's
  normalised weight times the row of the arc's target, plus a bias.  The kernel program materialises the normalised
  weights as a dense 10112 x 10112 matrix (zero outside the 10000 x 10000 corner) and computes each layer as two
  row-blocked matrix products over zero-padded tables; the reference sums arc by arc.  Over the extended reals the
  two agree when every float input is a real number and every node number lies in [0, 10000): a row of the dense
  matrix against a column of a real table is, by distributivity over real numbers, the sum over the arcs of that row
  (Algebra.lean), the padding contributes zeros (the padded weights vanish there), and the columns beyond 10000
  receive no arc.

  The three runs are the generated ones (the kernel's with its result buffers named, KRun.lean); the ideal pass
  rewrote nothing, so the idealization claim is trivial; the equality of results is Bridge.lean.
-/
import proofs.«102903_j56195352101227_1_alg».proof.Defs
import proofs.«102903_j56195352101227_1_alg».proof.Proof.Gen.Kernel
import proofs.«102903_j56195352101227_1_alg».proof.Proof.Gen.Kernel.Skeleton
import proofs.«102903_j56195352101227_1_alg».proof.Proof.Gen.Kernel.Launch
import proofs.«102903_j56195352101227_1_alg».proof.Proof.Gen.Kernel.Points
import proofs.«102903_j56195352101227_1_alg».proof.Proof.Gen.Kernel.Frame
import proofs.«102903_j56195352101227_1_alg».proof.Proof.Gen.KernelIdeal
import proofs.«102903_j56195352101227_1_alg».proof.Proof.Gen.KernelIdeal.Skeleton
import proofs.«102903_j56195352101227_1_alg».proof.Proof.Gen.KernelIdeal.Launch
import proofs.«102903_j56195352101227_1_alg».proof.Proof.Gen.KernelIdeal.Points
import proofs.«102903_j56195352101227_1_alg».proof.Proof.Gen.KernelIdeal.Frame
import proofs.«102903_j56195352101227_1_alg».proof.Proof.Gen.ReferenceIdeal
import proofs.«102903_j56195352101227_1_alg».proof.Proof.Gen.ReferenceIdeal.Run
import proofs.«102903_j56195352101227_1_alg».proof.Proof.Gen.ReferenceIdeal.Read
import proofs.«102903_j56195352101227_1_alg».proof.Proof.Gen.Pre_finite_inputs
import proofs.«102903_j56195352101227_1_alg».proof.Proof.Bridge
import Idealize.ShloMosaic.Adequacy
import Idealize.ShloMosaic.Init

noncomputable section

namespace Cert.Proof

open Idealize.ShloMosaic Idealize.SL.Sem Cert.Kernel

/-- Both kernel programs run to the end with their arguments unchanged (the generated frames); so does the reference
    (its generated run, the results dropped). -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
